-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S64x512 : Shape := ⟨2, ![64, 512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  main_v18

def fn {F : FTy → Type} [FloatOps F] (main_arg0 : FVec F S4x4096x512 .f32) (main_arg1 : FVec F S64x512 .f32) (main_arg2 : FVec F S64x512 .f32) (main_arg3 : FVec F S64x512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_v13 main_v16
-- ==== Kernel.lean ====
abbrev S4x4096x512 : Shape := ⟨3, ![4, 4096, 512]⟩
abbrev S64x512 : Shape := ⟨2, ![64, 512]⟩
abbrev S512x64 : Shape := ⟨2, ![512, 64]⟩
abbrev S4x4096x64 : Shape := ⟨3, ![4, 4096, 64]⟩
abbrev S4x64x4096 : Shape := ⟨3, ![4, 64, 4096]⟩
abbrev S1x1024x512 : Shape := ⟨3, ![1, 1024, 512]⟩
abbrev S1x1024x64 : Shape := ⟨3, ![1, 1024, 64]⟩
abbrev S1x64x1024 : Shape := ⟨3, ![1, 64, 1024]⟩
abbrev S1024x512 : Shape := ⟨2, ![1024, 512]⟩
abbrev S1024x64 : Shape := ⟨2, ![1024, 64]⟩
abbrev S64x1024 : Shape := ⟨2, ![64, 1024]⟩
abbrev S1x512x64 : Shape := ⟨3, ![1, 512, 64]⟩
abbrev S1x64x4096 : Shape := ⟨3, ![1, 64, 4096]⟩
abbrev S1x4096x64 : Shape := ⟨3, ![1, 4096, 64]⟩
abbrev S64x4096 : Shape := ⟨2, ![64, 4096]⟩
abbrev S4096x64 : Shape := ⟨2, ![4096, 64]⟩
abbrev S512x4096 : Shape := ⟨2, ![512, 4096]⟩
abbrev S512 : Shape := ⟨1, ![512]⟩
abbrev S512x1 : Shape := ⟨2, ![512, 1]⟩

abbrev nBuf : Space → Nat
  | .hbm => 11
  | .vmem => 19
  | .smem => 0
  | _ => 0

abbrev bufTy : (tb : Table) → Fin (tcTables nBuf tb) → BufTy
  | .hbm, ⟨0, _⟩ => ⟨S4x4096x512, .f32⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S512x64, .f32⟩
  | .hbm, ⟨5, _⟩ => ⟨S512x64, .f32⟩
  | .hbm, ⟨6, _⟩ => ⟨S512x64, .f32⟩
  | .hbm, ⟨7, _⟩ => ⟨S4x4096x64, .bf16⟩
  | .hbm, ⟨8, _⟩ => ⟨S4x64x4096, .bf16⟩
  | .hbm, ⟨9, _⟩ => ⟨S4x4096x64, .bf16⟩
  | .hbm, ⟨10, _⟩ => ⟨S4x4096x64, .f32⟩
  | .local _ .vmem, ⟨0, _⟩ => ⟨S1x1024x512, .f32⟩
  | .local _ .vmem, ⟨1, _⟩ => ⟨S1x1024x512, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S1x1024x64, .bf16⟩
  | .local _ .vmem, ⟨6, _⟩ => ⟨S1x1024x64, .bf16⟩
  | .local _ .vmem, ⟨7, _⟩ => ⟨S1x64x1024, .bf16⟩
  | .local _ .vmem, ⟨8, _⟩ => ⟨S1x64x1024, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x512x64, .bf16⟩
  | .local _ .vmem, ⟨12, _⟩ => ⟨S1x512x64, .bf16⟩
  | .local _ .vmem, ⟨13, _⟩ => ⟨S1x64x4096, .bf16⟩
  | .local _ .vmem, ⟨14, _⟩ => ⟨S1x64x4096, .bf16⟩
  | .local _ .vmem, ⟨15, _⟩ => ⟨S1x4096x64, .bf16⟩
  | .local _ .vmem, ⟨16, _⟩ => ⟨S1x4096x64, .bf16⟩
  | .local _ .vmem, ⟨17, _⟩ => ⟨S1x512x64, .f32⟩
  | .local _ .vmem, ⟨18, _⟩ => ⟨S1x512x64, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S64x512_S512x64_1_0 : S64x512.Transposes [1, 0] S512x64
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  transposes_S1024x64_p1_0_S64x1024 : S1024x64.Transposes [1, 0] S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  packedbf16_S1x64x1024_S1x64x1024_0_0_0 : (Rect.unit (s := S1x64x1024) ![0, 0, 0] S1x64x1024.size inb_S1x64x1024_S1x64x1024_0_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S512x4096_S512 : S512x4096.Reduces [1] S512
  shapeCasts_S512_S512x1 : S512.ShapeCasts S512x1
  broadcasts_S512x1_S512x4096 : S512x1.Broadcasts S512x4096
  broadcasts_S512x1_S512x64 : S512x1.Broadcasts S512x64
  shapeCasts_S512x64_S1x512x64 : S512x64.ShapeCasts S1x512x64
  dot_S1024x512_S512x64_S1024x64_1_0_0_1_n_n_wf : DotDims.WF S1024x512 S512x64 S1024x64 [1] [0] [0] [1] [] []
  dot_S512x64_S64x4096_S512x4096_1_0_0_1_n_n_wf : DotDims.WF S512x64 S64x4096 S512x4096 [1] [0] [0] [1] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S4x4096x512.size a
  hwx0_0 : ∀ i : grid0.Coords, EltTy.bits .f32 = 32 ∨ (Rect.block (s := S4x4096x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S4x4096x64.size a
  hwx0_4 : ∀ i : grid0.Coords, EltTy.bits .bf16 = 32 ∨ (Rect.block (s := S4x4096x64) S1x1024x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1024.size a ≤ S4x64x4096.size a
  hwx0_5 : ∀ i : grid0.Coords, EltTy.bits .bf16 = 32 ∨ (Rect.block (s := S4x64x4096) S1x64x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x64.size a ≤ S4x4096x64.size a
  hwx0_6 : ∀ i : grid0.Coords, EltTy.bits .bf16 = 32 ∨ (Rect.block (s := S4x4096x64) S1x1024x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S4x4096x64.size a
  hwx1_0 : ∀ i : grid1.Coords, EltTy.bits .bf16 = 32 ∨ (Rect.block (s := S4x4096x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x4096.size a ≤ S4x64x4096.size a
  hwx1_1 : ∀ i : grid1.Coords, EltTy.bits .bf16 = 32 ∨ (Rect.block (s := S4x64x4096) S1x64x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S4x4096x64.size a
  hwx1_2 : ∀ i : grid1.Coords, EltTy.bits .bf16 = 32 ∨ (Rect.block (s := S4x4096x64) S1x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S4x4096x64.size a
  hwx1_3 : ∀ i : grid1.Coords, EltTy.bits .f32 = 32 ∨ (Rect.block (s := S4x4096x64) S1x512x64.size (cc1_transform_3 i) (hinb1_3 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x64x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S1x1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v3_0) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x64x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x512 : Shape := ⟨3, ![4, 4096, 512]⟩
abbrev S64x512 : Shape := ⟨2, ![64, 512]⟩
abbrev S4x4096x64 : Shape := ⟨3, ![4, 4096, 64]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S_, .f32⟩
  | .hbm, ⟨17, _⟩ => ⟨S4x4096, .f32⟩
  | .hbm, ⟨18, _⟩ => ⟨S4x4096, .f32⟩
  | .hbm, ⟨19, _⟩ => ⟨S4x4096x1, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S4x4096x4096, .f32⟩
  | .hbm, ⟨27, _⟩ => ⟨S4x4096x4096, .f32⟩
  | .hbm, ⟨28, _⟩ => ⟨S4x4096x64, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x512_S64x512_S4x4096x64_2_1_01_0_n_n_wf : DotDims.WF S4x4096x512 S64x512 S4x4096x64 [2] [1] [0, 1] [0] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x512_S64x512_S4x4096x64_2_1_01_0_n_n : DotDims S4x4096x512 S64x512 S4x4096x64 where
  lhsContracting := [2]
  rhsContracting := [1]
  lhsNonContracting := [0, 1]
  rhsNonContracting := [0]
  lhsBatch := []
  rhsBatch := []
  wf := dot_S4x4096x512_S64x512_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.LibWords.lean ====
/-
  The f32 words that a batch-normalised pipeline over 4096 rows and a softmax with scale 1/8 spell, as the
  extended reals they denote: 8, 1/8, 4096, 1/4096, 1, 0, −∞ and +∞.  Two consequences follow at once:
  dividing by the word of 4096 (of 8) is multiplying by the word of 1/4096 (of 1/8), at every extended real,
  the infinities included; and 4096 − 0 = 4096 > 0, which is what a guarded variance (divide by the number
  of rows only when that number minus the degrees of freedom is positive) asks.
-/
import Idealize.ShloMosaic.PureOps.Ideal
import Idealize.ShloMosaic.PureOps.Ideal.Laws

noncomputable section

namespace Cert.LibWords

open Idealize.ShloMosaic

/-- The word 0x41000000 is 8 = 2³. -/
theorem ofBits_eight : Ideal.ofBits .f32 0x41000000#32 = ((8 : ℝ) : EReal) := by
  simp [Ideal.ofBits, Ideal.ieee, -EReal.coe_mul]; norm_num

/-- The word 0x3E000000 is 1/8 = 2⁻³. -/
theorem ofBits_eighth : Ideal.ofBits .f32 0x3E000000#32 = ((1 / 8 : ℝ) : EReal) := by
  simp [Ideal.ofBits, Ideal.ieee, -EReal.coe_mul]; norm_num

/-- The word 0x45800000 is 4096 = 2¹². -/
theorem ofBits_4096 : Ideal.ofBits .f32 0x45800000#32 = ((4096 : ℝ) : EReal) := by
  simp [Ideal.ofBits, Ideal.ieee, -EReal.coe_mul]; norm_num

/-- The word 0x39800000 is 1/4096 = 2⁻¹². -/
theorem ofBits_inv4096 : Ideal.ofBits .f32 0x39800000#32 = ((1 / 4096 : ℝ) : EReal) := by
  simp [Ideal.ofBits, Ideal.ieee, -EReal.coe_mul]; norm_num

/-- The word 0x3F800000 is 1. -/
theorem ofBits_one : Ideal.ofBits .f32 0x3F800000#32 = 1 := by
  simp [Ideal.ofBits, Ideal.ieee, -EReal.coe_mul]; norm_num

/-- The word 0x00000000 is 0. -/
theorem ofBits_zero : Ideal.ofBits .f32 0x00000000#32 = 0 := Ideal.ofBits_zero_f32

/-- The word 0xFF800000 (sign set, exponent all ones, fraction zero) is −∞. -/
theorem ofBits_negInf : Ideal.ofBits .f32 0xFF800000#32 = ⊥ := by
  simp [Ideal.ofBits, Ideal.ieee]

/-- The word 0x7F800000 (sign clear, exponent all ones, fraction zero) is +∞. -/
theorem ofBits_posInf : Ideal.ofBits .f32 0x7F800000#32 = ⊤ := by
  simp [Ideal.ofBits, Ideal.ieee]

/-- Dividing by 4096 is multiplying by 1/4096, at every extended real. -/
theorem div_4096 (x : EReal) :
    Ideal.div x (Ideal.ofBits .f32 0x45800000#32) = x * Ideal.ofBits .f32 0x39800000#32 := by
  rw [ofBits_4096, ofBits_inv4096]; exact Ideal.div_coe (by norm_num) x

/-- Dividing by 8 is multiplying by 1/8, at every extended real. -/
theorem div_eight (x : EReal) :
    Ideal.div x (Ideal.ofBits .f32 0x41000000#32) = x * Ideal.ofBits .f32 0x3E000000#32 := by
  rw [ofBits_eight, ofBits_eighth]; exact Ideal.div_coe (by norm_num) x

/-- 4096 − 0 = 4096 on the extended reals. -/
theorem sub_4096_zero :
    Ideal.ofBits .f32 0x45800000#32 - Ideal.ofBits .f32 0x00000000#32 = Ideal.ofBits .f32 0x45800000#32 := by
  rw [ofBits_zero, sub_zero]

/-- 4096 > 0: the ordered comparison "greater than" of the two words answers true. -/
theorem cmp_ogt_4096_zero :
    Ideal.cmp .ogt (Ideal.ofBits .f32 0x45800000#32) (Ideal.ofBits .f32 0x00000000#32) = 1#1 := by
  rw [ofBits_4096, ofBits_zero]
  have h : (0 : EReal) < ((4096 : ℝ) : EReal) := by exact_mod_cast (by norm_num : (0 : ℝ) < 4096)
  simp [Ideal.cmp, h]

/-- The same through the subtraction: (4096 − 0) > 0. -/
theorem cmp_ogt_sub_4096_zero :
    Ideal.cmp .ogt (Ideal.ofBits .f32 0x45800000#32 - Ideal.ofBits .f32 0x00000000#32)
      (Ideal.ofBits .f32 0x00000000#32) = 1#1 := by
  rw [sub_4096_zero]; exact cmp_ogt_4096_zero

end Cert.LibWords

end
-- ==== Proof.Spec.lean ====
/-
  Single-head attention over four batches of 4096 rows, stated index by index on the extended reals.

  From an input x[b, s, d] (d < 512) and three weight matrices w[o, d] (o < 64) the three projections are
  proj x w [b, s, o] = Σ_d x[b, s, d] · w[o, d].  With Q, K, V the projections by wq, wk, wv, the score of
  query row q against key row k is (Σ_o Q[b, q, o] · K[b, k, o]) · (1/8); a row's maximum M[b, q] is taken from
  −∞ over its 4096 keys; P[b, q, k] = exp (score − M) and L[b, q] = Σ_k P[b, q, k].

  Two arrangements of the last step are stated: the quotient taken AFTER the weighted sum,
      (Σ_k P[b, q, k] · V[b, k, o]) / L[b, q]                                   (attnOf),
  and the quotient taken entry by entry BEFORE it (a softmax, then a product),
      Σ_k (P[b, q, k] / L[b, q]) · V[b, k, o]                                   (softmaxAttn).
  On the extended reals these are not the same function in general (a quotient does not distribute over a sum
  at the infinities); they agree as soon as Q, K, V are finite: then every score is a real, so is the row's
  maximum (the row is not empty), every P is a positive real, L is a positive real, and the identity is the
  distributive law in ℝ.  The keys are held transposed, KT[b, o, k] = K[b, k, o].

  The scale: the word 0x3E000000 is 1/8, and 1 / √64 = 1/8 on the extended reals (√64 = 8 exactly).
-/
import Idealize.ShloMosaic.PureOps.Ideal
import Idealize.ShloMosaic.PureOps.Ideal.Laws
import Idealize.ShloMosaic.Lib.ValueIdx
import proofs.«125508_j42588895707870_2_alg».proof.Proof.LibWords

noncomputable section

open scoped BigOperators

namespace Cert.Attn

open Idealize.ShloMosaic Idealize.ShloMosaic.ValueIdx

/-- The input's shape, a weight's shape (as given: [out, in]), a weight's shape transposed, the shape of Q, V and of
    the result, and the shape of the transposed keys. -/
abbrev SX : Shape := ⟨3, ![4, 4096, 512]⟩
abbrev SW : Shape := ⟨2, ![64, 512]⟩
abbrev SWT : Shape := ⟨2, ![512, 64]⟩
abbrev SO : Shape := ⟨3, ![4, 4096, 64]⟩
abbrev SKT : Shape := ⟨3, ![4, 64, 4096]⟩

/-- The projection of x by w: entry (b, s, o) is Σ_d x[b, s, d] · w[o, d]. -/
def projArr (x : SX.Idx → EReal) (w : SW.Idx → EReal) : SO.Idx → EReal :=
  fun i => ∑ d : Fin 512, x (ix3 (i 0) (i 1) d) * w (ix2 (i 2) d)

/-- The same projection held transposed in its last two axes: entry (b, o, s) is Σ_d x[b, s, d] · w[o, d]. -/
def projArrT (x : SX.Idx → EReal) (w : SW.Idx → EReal) : SKT.Idx → EReal :=
  fun i => ∑ d : Fin 512, x (ix3 (i 0) (i 2) d) * w (ix2 (i 1) d)

/-- The projection by a weight matrix that is given already transposed, wT[d, o]: entry (b, s, o) is
    Σ_d x[b, s, d] · wT[d, o]. -/
def projBy (x : SX.Idx → EReal) (wT : SWT.Idx → EReal) : SO.Idx → EReal :=
  fun i => ∑ d : Fin 512, x (ix3 (i 0) (i 1) d) * wT (ix2 d (i 2))

/-- … and the same held transposed: entry (b, o, s) is Σ_d x[b, s, d] · wT[d, o]. -/
def projByT (x : SX.Idx → EReal) (wT : SWT.Idx → EReal) : SKT.Idx → EReal :=
  fun i => ∑ d : Fin 512, x (ix3 (i 0) (i 2) d) * wT (ix2 d (i 1))

/-- A [64, 512] matrix transposed. -/
def transposeW (w : SW.Idx → EReal) : SWT.Idx → EReal := fun j => w (ix2 (j 1) (j 0))

theorem projBy_transposeW (x : SX.Idx → EReal) (w : SW.Idx → EReal) : projBy x (transposeW w) = projArr x w := rfl
theorem projByT_transposeW (x : SX.Idx → EReal) (w : SW.Idx → EReal) : projByT x (transposeW w) = projArrT x w := rfl

/-- The score of query row q against key row k in batch b: (Σ_o Q[b, q, o] · KT[b, o, k]) · (1/8), the scale as its
    f32 word. -/
def scoreOf (Q : SO.Idx → EReal) (KT : SKT.Idx → EReal) (b : Fin 4) (q k : Fin 4096) : EReal :=
  (∑ o : Fin 64, Q (ix3 b q o) * KT (ix3 b o k)) * Ideal.ofBits .f32 0x3E000000#32

/-- A row's maximum, folded from the word of −∞ over the 4096 keys. -/
def rowmaxOf (Q : SO.Idx → EReal) (KT : SKT.Idx → EReal) (b : Fin 4) (q : Fin 4096) : EReal :=
  (Finset.univ : Finset (Fin 4096)).fold max (Ideal.ofBits .f32 0xFF800000#32) (fun k => scoreOf Q KT b q k)

/-- P[b, q, k] = exp (score − the row's maximum). -/
def pexpOf (Q : SO.Idx → EReal) (KT : SKT.Idx → EReal) (b : Fin 4) (q k : Fin 4096) : EReal :=
  Ideal.exp (scoreOf Q KT b q k - rowmaxOf Q KT b q)

/-- L[b, q] = Σ_k P[b, q, k]. -/
def denomOf (Q : SO.Idx → EReal) (KT : SKT.Idx → EReal) (b : Fin 4) (q : Fin 4096) : EReal :=
  ∑ k : Fin 4096, pexpOf Q KT b q k

/-- The quotient after the weighted sum: (Σ_k P[b, q, k] · V[b, k, o]) / L[b, q]. -/
def attnOf (Q : SO.Idx → EReal) (KT : SKT.Idx → EReal) (V : SO.Idx → EReal) : SO.Idx → EReal :=
  fun i => Ideal.div (∑ k : Fin 4096, pexpOf Q KT (i 0) (i 1) k * V (ix3 (i 0) k (i 2))) (denomOf Q KT (i 0) (i 1))

/-- The softmax first, then the product: Σ_k (P[b, q, k] / L[b, q]) · V[b, k, o]. -/
def softmaxAttn (Q : SO.Idx → EReal) (KT : SKT.Idx → EReal) (V : SO.Idx → EReal) : SO.Idx → EReal :=
  fun i => ∑ k : Fin 4096, Ideal.div (pexpOf Q KT (i 0) (i 1) k) (denomOf Q KT (i 0) (i 1)) * V (ix3 (i 0) k (i 2))

/-- The whole function, quotient last. -/
def attnK (x : SX.Idx → EReal) (wq wk wv : SW.Idx → EReal) : SO.Idx → EReal :=
  attnOf (projArr x wq) (projArrT x wk) (projArr x wv)

/-- The whole function, softmax first. -/
def attnR (x : SX.Idx → EReal) (wq wk wv : SW.Idx → EReal) : SO.Idx → EReal :=
  softmaxAttn (projArr x wq) (projArrT x wk) (projArr x wv)

end Cert.Attn

end
-- ==== Proof.SpecLaw.lean ====
/-
  The algebra of single-head attention on the extended reals: once the queries, the transposed keys and the
  values are real-valued, dividing the weighted sum by the row's denominator and dividing each weight first
  give the same array.

  Every score is a finite sum of products of reals times 1/8, hence a real.  The row's maximum, folded from −∞
  over a non-empty finite set of reals, is at least one of them (so it is not −∞) and below +∞ (every term is),
  hence a real.  The exponential of a real difference is a positive real, so the denominator, a sum over a
  non-empty finite set of positive reals, is a positive real l.  Dividing by the coercion of l ≠ 0 is
  multiplying by the coercion of 1/l; everything in sight is then a coercion of a real expression and the
  identity is  (Σ_k p_k v_k) · c = Σ_k (p_k · c) · v_k  in ℝ.

  The projections Σ_d x[b, s, d] · w[o, d] of real arrays are real for the same reason, which gives the
  statement for the whole function.
-/
import Mathlib
import Idealize.ShloMosaic.PureOps.Ideal
import Idealize.ShloMosaic.PureOps.Ideal.Laws
import Idealize.ShloMosaic.Lib.ValueIdx
import proofs.«125508_j42588895707870_2_alg».proof.Proof.LibWords
import proofs.«125508_j42588895707870_2_alg».proof.Proof.Spec

noncomputable section

open scoped BigOperators

namespace Cert.Attn

open Idealize.ShloMosaic Idealize.ShloMosaic.ValueIdx

/-! ## Finite sums and folded maxima of coerced reals -/

/-- The coercion ℝ → EReal commutes with finite sums. -/
theorem coe_sum_real {ι : Type*} (s : Finset ι) (f : ι → ℝ) :
    ∑ k ∈ s, ((f k : ℝ) : EReal) = ((∑ k ∈ s, f k : ℝ) : EReal) := by
  classical
  induction s using Finset.induction_on with
  | empty => simp
  | insert a t ha ih => rw [Finset.sum_insert ha, Finset.sum_insert ha, ih, EReal.coe_add]

/-- A finite sum of products of coerced reals is the coercion of the real sum of products. -/
theorem sum_mul_coe_real {ι : Type*} (s : Finset ι) (f g : ι → ℝ) :
    ∑ k ∈ s, ((f k : ℝ) : EReal) * ((g k : ℝ) : EReal) = ((∑ k ∈ s, f k * g k : ℝ) : EReal) := by
  rw [← coe_sum_real]
  exact Finset.sum_congr rfl (fun k _ => (EReal.coe_mul _ _).symm)

/-- The maximum of a non-empty finite family of reals, folded from −∞ on the extended reals, is a real. -/
theorem fold_max_real {ι : Type*} (s : Finset ι) (hs : s.Nonempty) (f : ι → ℝ) :
    ∃ r : ℝ, s.fold max (⊥ : EReal) (fun k => ((f k : ℝ) : EReal)) = (r : EReal) := by
  have htop : s.fold max (⊥ : EReal) (fun k => ((f k : ℝ) : EReal)) ≠ ⊤ := by
    apply ne_of_lt
    rw [Finset.fold_max_lt]
    exact ⟨bot_lt_top, fun x _ => EReal.coe_lt_top _⟩
  have hbot : s.fold max (⊥ : EReal) (fun k => ((f k : ℝ) : EReal)) ≠ ⊥ := by
    obtain ⟨a, ha⟩ := hs
    have hle : ((f a : ℝ) : EReal) ≤ s.fold max (⊥ : EReal) (fun k => ((f k : ℝ) : EReal)) := by
      rw [Finset.le_fold_max]
      exact Or.inr ⟨a, ha, le_rfl⟩
    exact ne_of_gt (lt_of_lt_of_le (EReal.bot_lt_coe _) hle)
  exact ⟨_, (EReal.coe_toReal htop hbot).symm⟩

/-! ## The law over an abstract finite index set -/

/-- With real weights P and real values V whose weights sum to l ≠ 0, the quotient of the weighted sum by
    the weights' sum is the sum of the quotients times the values. -/
theorem div_sum_eq_sum_div {κ : Type*} [Fintype κ] (P V : κ → EReal) (p v : κ → ℝ)
    (hP : ∀ k, P k = ((p k : ℝ) : EReal)) (hV : ∀ k, V k = ((v k : ℝ) : EReal)) (hl : ∑ k, p k ≠ 0) :
    Ideal.div (∑ k, P k * V k) (∑ k, P k) = ∑ k, Ideal.div (P k) (∑ k, P k) * V k := by
  have hL : ∑ k, P k = ((∑ k, p k : ℝ) : EReal) := by
    rw [← coe_sum_real]
    exact Finset.sum_congr rfl (fun k _ => hP k)
  have hN : ∑ k, P k * V k = ((∑ k, p k * v k : ℝ) : EReal) := by
    rw [← sum_mul_coe_real]
    exact Finset.sum_congr rfl (fun k _ => by rw [hP k, hV k])
  have hR : ∀ k, Ideal.div (P k) (((∑ k, p k : ℝ) : EReal)) * V k
      = ((p k * (1 / ∑ k, p k) * v k : ℝ) : EReal) := by
    intro k
    rw [Ideal.div_coe hl, hP k, hV k, ← EReal.coe_mul, ← EReal.coe_mul]
  rw [hL, hN, Ideal.div_coe hl, ← EReal.coe_mul]
  rw [Finset.sum_congr rfl (fun k _ => hR k), coe_sum_real]
  congr 1
  rw [Finset.sum_mul]
  exact Finset.sum_congr rfl (fun k _ => by ring)

/-! ## The scores, the row maxima, the weights and the denominators of real arrays -/

section RealArrays

variable (Qr : SO.Idx → ℝ) (KTr : SKT.Idx → ℝ)

/-- Each score of real arrays is a real. -/
theorem scoreOf_coe (b : Fin 4) (q k : Fin 4096) :
    scoreOf (fun i => ((Qr i : ℝ) : EReal)) (fun i => ((KTr i : ℝ) : EReal)) b q k
      = (((∑ o : Fin 64, Qr (ix3 b q o) * KTr (ix3 b o k)) * (1 / 8) : ℝ) : EReal) := by
  unfold scoreOf
  rw [Cert.LibWords.ofBits_eighth, sum_mul_coe_real, ← EReal.coe_mul]

/-- Each row maximum of real arrays is a real. -/
theorem rowmaxOf_real (b : Fin 4) (q : Fin 4096) :
    ∃ m : ℝ, rowmaxOf (fun i => ((Qr i : ℝ) : EReal)) (fun i => ((KTr i : ℝ) : EReal)) b q = (m : EReal) := by
  unfold rowmaxOf
  rw [Cert.LibWords.ofBits_negInf]
  have hf : (fun k : Fin 4096 =>
        scoreOf (fun i => ((Qr i : ℝ) : EReal)) (fun i => ((KTr i : ℝ) : EReal)) b q k)
      = fun k : Fin 4096 => (((∑ o : Fin 64, Qr (ix3 b q o) * KTr (ix3 b o k)) * (1 / 8) : ℝ) : EReal) :=
    funext fun k => scoreOf_coe Qr KTr b q k
  rw [hf]
  exact fold_max_real _ ⟨(0 : Fin 4096), Finset.mem_univ _⟩ _

/-- Each weight exp (score − maximum) of real arrays is a positive real. -/
theorem pexpOf_real (b : Fin 4) (q k : Fin 4096) :
    ∃ p : ℝ, 0 < p ∧
      pexpOf (fun i => ((Qr i : ℝ) : EReal)) (fun i => ((KTr i : ℝ) : EReal)) b q k = (p : EReal) := by
  obtain ⟨m, hm⟩ := rowmaxOf_real Qr KTr b q
  refine ⟨Real.exp ((∑ o : Fin 64, Qr (ix3 b q o) * KTr (ix3 b o k)) * (1 / 8) - m), Real.exp_pos _, ?_⟩
  unfold pexpOf
  rw [hm, scoreOf_coe, ← EReal.coe_sub, Ideal.exp_coe]

end RealArrays

/-! ## The statements -/

/-- On real-valued queries, transposed keys and values, the quotient after the weighted sum is the softmax
    followed by the product. -/
theorem attn_law (Q : SO.Idx → EReal) (KT : SKT.Idx → EReal) (V : SO.Idx → EReal)
    (hQ : ∀ i, ∃ r : ℝ, Q i = (r : EReal)) (hKT : ∀ i, ∃ r : ℝ, KT i = (r : EReal))
    (hV : ∀ i, ∃ r : ℝ, V i = (r : EReal)) :
    attnOf Q KT V = softmaxAttn Q KT V := by
  choose Qr hQr using hQ
  choose KTr hKTr using hKT
  choose Vr hVr using hV
  obtain rfl : Q = fun i => ((Qr i : ℝ) : EReal) := funext hQr
  obtain rfl : KT = fun i => ((KTr i : ℝ) : EReal) := funext hKTr
  funext i
  choose p hp0 hp using fun k => pexpOf_real Qr KTr (i 0) (i 1) k
  have hl : ∑ k, p k ≠ 0 :=
    ne_of_gt (Finset.sum_pos (fun k _ => hp0 k) ⟨(0 : Fin 4096), Finset.mem_univ _⟩)
  unfold attnOf softmaxAttn denomOf
  exact div_sum_eq_sum_div _ (fun k => V (ix3 (i 0) k (i 2))) p (fun k => Vr (ix3 (i 0) k (i 2)))
    hp (fun k => hVr _) hl

/-- The projection of a real input by a real weight matrix is real. -/
theorem projArr_real (x : SX.Idx → EReal) (w : SW.Idx → EReal)
    (hx : ∀ i, ∃ r : ℝ, x i = (r : EReal)) (hw : ∀ i, ∃ r : ℝ, w i = (r : EReal)) :
    ∀ i, ∃ r : ℝ, projArr x w i = (r : EReal) := by
  choose xr hxr using hx
  choose wr hwr using hw
  intro i
  refine ⟨∑ d : Fin 512, xr (ix3 (i 0) (i 1) d) * wr (ix2 (i 2) d), ?_⟩
  unfold projArr
  rw [← sum_mul_coe_real]
  exact Finset.sum_congr rfl (fun d _ => by rw [hxr, hwr])

/-- The transposed projection of a real input by a real weight matrix is real. -/
theorem projArrT_real (x : SX.Idx → EReal) (w : SW.Idx → EReal)
    (hx : ∀ i, ∃ r : ℝ, x i = (r : EReal)) (hw : ∀ i, ∃ r : ℝ, w i = (r : EReal)) :
    ∀ i, ∃ r : ℝ, projArrT x w i = (r : EReal) := by
  choose xr hxr using hx
  choose wr hwr using hw
  intro i
  refine ⟨∑ d : Fin 512, xr (ix3 (i 0) (i 2) d) * wr (ix2 (i 1) d), ?_⟩
  unfold projArrT
  rw [← sum_mul_coe_real]
  exact Finset.sum_congr rfl (fun d _ => by rw [hxr, hwr])

/-- On a real input and real weights the two arrangements of the whole function agree. -/
theorem attnK_eq_attnR (x : SX.Idx → EReal) (wq wk wv : SW.Idx → EReal)
    (hx : ∀ i, ∃ r : ℝ, x i = (r : EReal))
    (hq : ∀ i, ∃ r : ℝ, wq i = (r : EReal)) (hk : ∀ i, ∃ r : ℝ, wk i = (r : EReal))
    (hv : ∀ i, ∃ r : ℝ, wv i = (r : EReal)) :
    attnK x wq wk wv = attnR x wq wk wv :=
  attn_law _ _ _ (projArr_real x wq hx hq) (projArrT_real x wk hx hk) (projArr_real x wv hx hv)

end Cert.Attn

end
-- ==== Proof.Finite.lean ====
/-
  From the precondition "every entry of the four inputs has absolute value below +∞" to "every entry of the
  four inputs is a real".

  The precondition is printed as a pure function: for each input a, the array |a| < +∞ (the absolute value
  max a (−a), compared with the word of +∞) is reduced by "and" over all its axes from the constant 1, and
  the four results are joined by "and"; the claim states that the answer is 1.  An "and" that is 1 has both
  operands 1; a reduction by "and" into a single result that is 1 met a 1 at every entry; and an extended
  real x with max x (−x) < ⊤ is neither ⊤ (then max x (−x) = ⊤) nor ⊥ (then −x = ⊤), hence a real.
-/
import Idealize.ShloMosaic.PureOps.Ideal
import Idealize.ShloMosaic.Lib.ReduceAll
import Idealize.ShloMosaic.Lib.ValueIdx
import Idealize.ShloMosaic.Lib.IdealHost
import proofs.«125508_j42588895707870_2_alg».proof.Pre_finite_inputs
import proofs.«125508_j42588895707870_2_alg».proof.Proof.LibWords

noncomputable section

namespace Cert.Attn

open Idealize.ShloMosaic Idealize.ShloMosaic.ValueIdx

/-- An extended real whose absolute value max x (−x) compares below the word of +∞ is a real. -/
theorem real_of_abs_lt_top (x : EReal)
    (h : Ideal.cmp .olt (max x (-x)) (Ideal.ofBits .f32 0x7F800000#32) = 1#1) : ∃ r : ℝ, x = (r : EReal) := by
  rw [Cert.LibWords.ofBits_posInf] at h
  induction x using EReal.rec with
  | bot => simp [Ideal.cmp] at h
  | top => simp [Ideal.cmp] at h
  | coe r => exact ⟨r, rfl⟩

/-- The scalar shape has one index. -/
instance : Subsingleton Cert.Pre_finite_inputs.S_.Idx := ⟨fun a b => funext fun d => d.elim0⟩

/-- One input: if the reduction by "and", over all axes, of the array |a| < +∞ answers 1, every entry of a
    is a real. -/
theorem all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf a)
          (broadcastInDim s ![] hb (constant Cert.Pre_finite_inputs.S_ .f32 0x7F800000#32)))
        (constantI Cert.Pre_finite_inputs.S_ 1 1#1) hr hu ix0 = 1#1) :
    ∀ i, ∃ r : ℝ, a i = (r : EReal) := by
  intro i
  have hi := Host.reduce_andi_all _ _ hr hu ix0 e i
  rw [cmpf_apply, broadcastInDim_scalar_apply] at hi
  exact real_of_abs_lt_top (a i) hi

/-- The precondition, answered 1, says every entry of the four inputs is a real. -/
theorem real_of_pre [Cert.Pre_finite_inputs.Facts]
    (a0 : FVec Ideal Cert.Pre_finite_inputs.S4x4096x512 .f32)
    (a1 a2 a3 : FVec Ideal Cert.Pre_finite_inputs.S64x512 .f32)
    (h : Cert.Pre_finite_inputs.fn (F := Ideal) a0 a1 a2 a3 = (fun _ => 1#1)) :
    (∀ i, ∃ r : ℝ, a0 i = (r : EReal)) ∧ (∀ i, ∃ r : ℝ, a1 i = (r : EReal)) ∧
      (∀ i, ∃ r : ℝ, a2 i = (r : EReal)) ∧ (∀ i, ∃ r : ℝ, a3 i = (r : EReal)) := by
  have h0 := congrFun h ix0
  dsimp only [Cert.Pre_finite_inputs.fn, Cert.Pre_finite_inputs.fn_part1, andi] at h0
  obtain ⟨h012, e3⟩ := IntOp.andi_eq_one.1 h0
  obtain ⟨h01, e2⟩ := IntOp.andi_eq_one.1 h012
  obtain ⟨e0, e1⟩ := IntOp.andi_eq_one.1 h01
  exact ⟨all_real a0 _ _ _ e0, all_real a1 _ _ _ e1, all_real a2 _ _ _ e2, all_real a3 _ _ _ e3⟩

end Cert.Attn

end
-- ==== Proof.RefValue.lean ====
/-
  The reference program, read index by index, is the softmax-first arrangement of the specification.

  The reference forms Q, K, V = x · Wᵀ (sums over d < 512), the scores (Σ_o Q[b, q, o] · K[b, k, o]) · (1 / √64), a row's
  maximum by a reduction from −∞ over the 4096 keys, P = exp (score − maximum), L = Σ_k P, the weights P / L entry by
  entry, and the result Σ_k (P[b, q, k] / L[b, q]) · V[b, k, o].  Stage by stage each of these is identified with the
  specification's term at explicit coordinates (b, q, k):

  * the scale: the word 0x42800000 is 64, √64 = 8 exactly, and 1 / 8 is the word 0x3E000000, so the reference's
    1 / √64 is the specification's scale word;
  * the keys: the specification holds them transposed, KT[b, o, k] = K[b, k, o], which is the same sum over d;
  * the row maximum: a reduction over one axis with a commutative and associative body is the fold over that axis's
    coordinates from the initial value, here max from the word of −∞; taking the maximum with that word once more
    changes nothing, since a fold of max from a is at least a;
  * the denominator: the reduction with an add body from the zero word is 0 + Σ_k, and 0 + s = s.
-/
import proofs.«125508_j42588895707870_2_alg».proof.Proof.Gen.ReferenceIdeal.Read
import proofs.«125508_j42588895707870_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.Attn.Ref

open Idealize.ShloMosaic Idealize.ShloMosaic.ValueIdx Idealize.ShloMosaic.StableHlo
open Cert.ReferenceIdeal Cert.ReferenceIdeal.Gen Cert.ReferenceIdeal.Read

/-- The word 0x42800000 is 64 = 2⁶. -/
theorem ofBits_sixtyFour : Ideal.ofBits .f32 0x42800000#32 = ((64 : ℝ) : EReal) := by
  simp [Ideal.ofBits, Ideal.ieee, -EReal.coe_mul]; norm_num

/-- 1 / √64 = 1/8 on the extended reals: √64 = 8 exactly, and dividing 1 by the real 8 is multiplying it by 1/8. -/
theorem scale_ref :
    Ideal.div (Ideal.ofBits .f32 0x3F800000#32) (Ideal.sqrt (Ideal.ofBits .f32 0x42800000#32))
      = Ideal.ofBits .f32 0x3E000000#32 := by
  have h8 : Real.sqrt 64 = 8 := by
    rw [show (64 : ℝ) = 8 ^ 2 by norm_num]; exact Real.sqrt_sq (by norm_num)
  rw [ofBits_sixtyFour, Cert.LibWords.ofBits_one, Cert.LibWords.ofBits_eighth, Ideal.sqrt_coe,
    if_neg (by norm_num), h8, Ideal.div_coe (by norm_num), one_mul]

/-- The query projection, index by index. -/
theorem proj_q (x0 : (⟨S4x4096x512, .f32⟩ : BufTy).Contents (Elt Ideal))
    (x1 : (⟨S64x512, .f32⟩ : BufTy).Contents (Elt Ideal)) :
    val_main_v0 (F := Ideal) x0 x1 = projArr x0 x1 := by
  funext i
  rw [val_main_v0_apply]
  unfold projArr
  refine Finset.sum_congr rfl fun d _ => ?_
  have el : lidx_main_v0 i d = ix3 (i 0) (i 1) d :=
    funext fun a => Fin.ext (by match a with | ⟨0, _⟩ => rfl | ⟨1, _⟩ => rfl | ⟨2, _⟩ => rfl)
  have er : ridx_main_v0 i d = ix2 (i 2) d :=
    funext fun a => Fin.ext (by match a with | ⟨0, _⟩ => rfl | ⟨1, _⟩ => rfl)
  exact congrArg₂ _ (congrArg x0 el) (congrArg x1 er)

/-- The key projection, index by index (not yet transposed). -/
theorem proj_k (x0 : (⟨S4x4096x512, .f32⟩ : BufTy).Contents (Elt Ideal))
    (x2 : (⟨S64x512, .f32⟩ : BufTy).Contents (Elt Ideal)) :
    val_main_v1 (F := Ideal) x0 x2 = projArr x0 x2 := by
  funext i
  rw [val_main_v1_apply]
  unfold projArr
  refine Finset.sum_congr rfl fun d _ => ?_
  have el : lidx_main_v1 i d = ix3 (i 0) (i 1) d :=
    funext fun a => Fin.ext (by match a with | ⟨0, _⟩ => rfl | ⟨1, _⟩ => rfl | ⟨2, _⟩ => rfl)
  have er : ridx_main_v1 i d = ix2 (i 2) d :=
    funext fun a => Fin.ext (by match a with | ⟨0, _⟩ => rfl | ⟨1, _⟩ => rfl)
  exact congrArg₂ _ (congrArg x0 el) (congrArg x2 er)

/-- The value projection, index by index. -/
theorem proj_v (x0 : (⟨S4x4096x512, .f32⟩ : BufTy).Contents (Elt Ideal))
    (x3 : (⟨S64x512, .f32⟩ : BufTy).Contents (Elt Ideal)) :
    val_main_v2 (F := Ideal) x0 x3 = projArr x0 x3 := by
  funext i
  rw [val_main_v2_apply]
  unfold projArr
  refine Finset.sum_congr rfl fun d _ => ?_
  have el : lidx_main_v2 i d = ix3 (i 0) (i 1) d :=
    funext fun a => Fin.ext (by match a with | ⟨0, _⟩ => rfl | ⟨1, _⟩ => rfl | ⟨2, _⟩ => rfl)
  have er : ridx_main_v2 i d = ix2 (i 2) d :=
    funext fun a => Fin.ext (by match a with | ⟨0, _⟩ => rfl | ⟨1, _⟩ => rfl)
  exact congrArg₂ _ (congrArg x0 el) (congrArg x3 er)

/-- The transposed projection at (b, o, k) is the projection at (b, k, o). -/
theorem projArrT_ix3 (x : SX.Idx → EReal) (w : SW.Idx → EReal) (b : Fin 4) (o : Fin 64) (k : Fin 4096) :
    projArrT x w (ix3 b o k) = projArr x w (ix3 b k o) := rfl

/-- The scaled scores: entry (b, q, k) of the product of Q and K over o, times 1 / √64, is the specification's score. -/
theorem scores_apply (x0 : (⟨S4x4096x512, .f32⟩ : BufTy).Contents (Elt Ideal))
    (x1 x2 : (⟨S64x512, .f32⟩ : BufTy).Contents (Elt Ideal)) (b : Fin 4) (q k : Fin 4096) :
    val_main_v7 (F := Ideal) x0 x1 x2 (ix3 b q k) = scoreOf (projArr x0 x1) (projArrT x0 x2) b q k := by
  rw [val_main_v7_apply, val_main_v5_apply, val_main_v6_apply, val_main_v4_apply, val_main_cst_0_apply,
    val_main_v3_apply, val_main_cst_apply, proj_q, proj_k]
  simp only [Ideal.mulf_def, Ideal.hostDivf_def, Ideal.hostUnary_sqrt_def, Ideal.ofBits_def]
  rw [scale_ref]
  unfold scoreOf
  refine congrArg (· * Ideal.ofBits .f32 0x3E000000#32) (Finset.sum_congr rfl fun o _ => ?_)
  have el : lidx_main_v5 (ix3 b q k) o = ix3 b q o :=
    funext fun a => Fin.ext (by match a with | ⟨0, _⟩ => rfl | ⟨1, _⟩ => rfl | ⟨2, _⟩ => rfl)
  have er : ridx_main_v5 (ix3 b q k) o = ix3 b k o :=
    funext fun a => Fin.ext (by match a with | ⟨0, _⟩ => rfl | ⟨1, _⟩ => rfl | ⟨2, _⟩ => rfl)
  rw [el, er, projArrT_ix3]

/-- The reduction over the key axis drops axis 2 of a [4, 4096, 4096] array. -/
theorem reduces_keys : S4x4096x4096.Reduces [2] S4x4096 := by decide

/-- The reduced index (b, q) with key k put back on the dropped axis is (b, q, k). -/
theorem lift_keys (b : Fin 4) (q : Fin 4096) (k : Fin (S4x4096x4096.size 2)) :
    reduces_keys.lift (ix2 b q) k = ix3 b q (⟨k.val, k.isLt⟩ : Fin 4096) := by
  funext c; apply Fin.ext
  fin_cases c <;> rfl

/-- A fold of max from a contains a: taking the maximum with a once more changes nothing. -/
theorem max_fold_max_self {ι : Type} (s : Finset ι) (a : EReal) (f : ι → EReal) :
    max a (s.fold max a f) = s.fold max a f :=
  max_eq_right (Finset.le_fold_max a |>.mpr (Or.inl le_rfl))

/-- The row maximum: the reduce with a maximum body from −∞ over the key axis, at (b, q), is the specification's fold. -/
theorem rowmax_apply (x0 : (⟨S4x4096x512, .f32⟩ : BufTy).Contents (Elt Ideal))
    (x1 x2 : (⟨S64x512, .f32⟩ : BufTy).Contents (Elt Ideal)) (b : Fin 4) (q : Fin 4096) :
    val_main_v8 (F := Ideal) x0 x1 x2 (ix2 b q) = rowmaxOf (projArr x0 x1) (projArrT x0 x2) b q := by
  unfold val_main_v8
  rw [Host.reduce_eq_fold_single FloatOps.maximumf _ _ reducesTo_S4x4096x4096_S4x4096_d2 reduces_keys h_S_]
  unfold rowmaxOf
  refine Finset.fold_congr fun k _ => ?_
  show val_main_v7 (F := Ideal) x0 x1 x2 (reduces_keys.lift (ix2 b q) k) = _
  rw [lift_keys, scores_apply]
  rfl

/-- The stabiliser: the maximum of the −∞ splat with the row maximum is the row maximum. -/
theorem stab_apply (x0 : (⟨S4x4096x512, .f32⟩ : BufTy).Contents (Elt Ideal))
    (x1 x2 : (⟨S64x512, .f32⟩ : BufTy).Contents (Elt Ideal)) (b : Fin 4) (q : Fin 4096) :
    val_main_v10 (F := Ideal) x0 x1 x2 (ix2 b q) = rowmaxOf (projArr x0 x1) (projArrT x0 x2) b q := by
  rw [val_main_v10_apply, val_main_v9_apply, val_main_cst_2_apply, rowmax_apply]
  simp only [Ideal.maximumf_def, Ideal.ofBits_def]
  exact max_fold_max_self _ _ _

/-- P: the exponential of the score minus the broadcast row maximum, at (b, q, k). -/
theorem pexp_apply (x0 : (⟨S4x4096x512, .f32⟩ : BufTy).Contents (Elt Ideal))
    (x1 x2 : (⟨S64x512, .f32⟩ : BufTy).Contents (Elt Ideal)) (b : Fin 4) (q k : Fin 4096) :
    val_main_v14 (F := Ideal) x0 x1 x2 (ix3 b q k) = pexpOf (projArr x0 x1) (projArrT x0 x2) b q k := by
  have e : idx_main_v11 (idx_main_v12 (ix3 b q k)) = ix2 b q :=
    funext fun a => Fin.ext (by match a with | ⟨0, _⟩ => rfl | ⟨1, _⟩ => rfl)
  rw [val_main_v14_apply, val_main_v13_apply, val_main_v12_apply, val_main_v11_apply, e, stab_apply, scores_apply]
  simp only [Ideal.hostUnary_exp_def, Ideal.subf_def]
  rfl

/-- L: the sum over the keys from the zero word, at (b, q). -/
theorem denom_apply (x0 : (⟨S4x4096x512, .f32⟩ : BufTy).Contents (Elt Ideal))
    (x1 x2 : (⟨S64x512, .f32⟩ : BufTy).Contents (Elt Ideal)) (b : Fin 4) (q : Fin 4096) :
    val_main_v15 (F := Ideal) x0 x1 x2 (ix2 b q) = denomOf (projArr x0 x1) (projArrT x0 x2) b q := by
  rw [val_main_v15_apply, val_main_cst_3_apply]
  simp only [Ideal.ofBits_def]
  rw [Ideal.ofBits_zero_f32, zero_add]
  unfold denomOf
  refine Finset.sum_congr rfl fun k _ => ?_
  have e : idx_main_v15 (ix2 b q) k = ix3 b q k :=
    funext fun a => Fin.ext (by match a with | ⟨0, _⟩ => rfl | ⟨1, _⟩ => rfl | ⟨2, _⟩ => rfl)
  rw [e, pexp_apply]

/-- The softmax weights: P divided entry by entry by the broadcast L, at (b, q, k). -/
theorem weights_apply (x0 : (⟨S4x4096x512, .f32⟩ : BufTy).Contents (Elt Ideal))
    (x1 x2 : (⟨S64x512, .f32⟩ : BufTy).Contents (Elt Ideal)) (b : Fin 4) (q k : Fin 4096) :
    val_main_v18 (F := Ideal) x0 x1 x2 (ix3 b q k)
      = Ideal.div (pexpOf (projArr x0 x1) (projArrT x0 x2) b q k) (denomOf (projArr x0 x1) (projArrT x0 x2) b q) := by
  have e : idx_main_v16 (idx_main_v17 (ix3 b q k)) = ix2 b q :=
    funext fun a => Fin.ext (by match a with | ⟨0, _⟩ => rfl | ⟨1, _⟩ => rfl)
  rw [val_main_v18_apply, val_main_v17_apply, val_main_v16_apply, e, denom_apply, pexp_apply]
  rfl

/-- The reference computes the softmax-first arrangement of the specification. -/
theorem ref_eq (x0 : (⟨S4x4096x512, .f32⟩ : BufTy).Contents (Elt Ideal))
    (x1 x2 x3 : (⟨S64x512, .f32⟩ : BufTy).Contents (Elt Ideal)) :
    val_main_v19 (F := Ideal) x0 x1 x2 x3 = attnR x0 x1 x2 x3 := by
  funext i
  obtain ⟨b, q, o, rfl⟩ : ∃ (b : Fin 4) (q : Fin 4096) (o : Fin 64), i = ix3 b q o := ⟨i 0, i 1, i 2, eq_ix3 i⟩
  rw [val_main_v19_apply, proj_v]
  unfold attnR softmaxAttn
  refine Finset.sum_congr rfl fun k _ => ?_
  have el : lidx_main_v19 (ix3 b q o) k = ix3 b q k :=
    funext fun a => Fin.ext (by match a with | ⟨0, _⟩ => rfl | ⟨1, _⟩ => rfl | ⟨2, _⟩ => rfl)
  have er : ridx_main_v19 (ix3 b q o) k = ix3 b k o :=
    funext fun a => Fin.ext (by match a with | ⟨0, _⟩ => rfl | ⟨1, _⟩ => rfl | ⟨2, _⟩ => rfl)
  rw [el, er, weights_apply]

end Cert.Attn.Ref

end
-- ==== Proof.KernelRun.lean ====
/-
  The idealized kernel's run with its result named.  The program is three segments: a stretch of host operations
  (the three weight transposes), the projection region and the attention region.  The buffer contents at the
  segment boundaries form a fold from the launch memory (the generated `Gen.W0 … Gen.W3`), and the launch over the
  segments ends in a state where EVERY unscoped buffer holds the last boundary's contents `Gen.W3`.  The generated
  frame reads only the four argument arrays out of that final fact; here the same launch is read at the result
  buffer as well: the result array ends at `Gen.W3 m ρ c` of the result's reference, the arguments as launched.
-/
import proofs.«125508_j42588895707870_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last segment
    boundary's contents and the four argument arrays as launched. -/
theorem run_result : θ_run defs (onTc (τ := τ) (main (F := F))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v4 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Result

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.LibRowRead.lean ====
/-
  Vector operations read at an index, at the ideal instance, for the shapes of a row-blocked kernel: a column
  [a, 1] broadcast along the lanes, a vector [a] cast to a column [a, 1], the sum of a row of an [a, b] block,
  four [a, 32] pieces joined along the lanes into [a, 128], and the matrix product into the zero splat for
  operands of any float format (a change of format is the identity on extended reals).
-/
import Idealize.ShloMosaic.PureOps.Ideal.Laws
import Idealize.ShloMosaic.Lib.ValueIdx
import Idealize.ShloMosaic.Lib.ValueLayout
import Idealize.ShloMosaic.Lib.Pipeline.Value
import proofs.«125508_j42588895707870_2_alg».proof.Proof.LibPlainDot

noncomputable section

namespace Cert.Lib.RowRead

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index p with lane k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane sum of an [a, b] block, at row p, is the sum over the b lanes of the block's row p. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ) (p : Fin a) :
    multiReduction .add [1] (⟨1, ![a]⟩ : Shape) src acc h hφ hacc (ix1 p) = ∑ k : Fin b, src (ix2 p k) := by
  rw [Ideal.multiReduction_add_single]
  exact Finset.sum_congr rfl fun k _ => by rw [lift_row]; rfl

/-- Four [a, 32] pieces joined along the lanes: lane 32 k + c of the result is lane c of piece k. -/
theorem concat4_apply {a : ℕ} (x0 x1 x2 x3 : (⟨2, ![a, 32]⟩ : Shape).Idx → α)
    (h : Shape.Concatenates (([⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] :
      List ((s : Shape) × (s.Idx → α))).map (·.1)) (⟨2, ![a, 128]⟩ : Shape) 1)
    (p : Fin a) (c : Fin 32) (k : Fin 4) (q : Fin 128) (hq : q.val = 32 * k.val + c.val) :
    concatenate (⟨2, ![a, 128]⟩ : Shape) 1 [⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] h (ix2 p q)
      = (![x0, x1, x2, x3] k) (ix2 p c) := by
  have hi : ∀ b : Fin (⟨2, ![a, 32]⟩ : Shape).rank, b.cast (rfl : (⟨2, ![a, 32]⟩ : Shape).rank = (⟨2, ![a, 128]⟩ : Shape).rank) ≠ (1 : Fin 2) →
      ((ix2 p c : (⟨2, ![a, 32]⟩ : Shape).Idx) b).val = ((ix2 p q : (⟨2, ![a, 128]⟩ : Shape).Idx) (b.cast rfl)).val := by
    intro b hb
    match b with
    | ⟨0, _⟩ => rfl
    | ⟨1, _⟩ => exact absurd rfl hb
  fin_cases k
  · exact concatenate_apply_piece 1 _ h _ 0 (by simp) _ x0 rfl rfl 0 rfl (ix2 p c) hi (by show 0 + c.val = q.val; simp at hq; omega)
  · exact concatenate_apply_piece 1 _ h _ 1 (by simp) _ x1 rfl rfl 32 rfl (ix2 p c) hi (by show 32 + c.val = q.val; simp at hq; omega)
  · exact concatenate_apply_piece 1 _ h _ 2 (by simp) _ x2 rfl rfl 64 rfl (ix2 p c) hi (by show 64 + c.val = q.val; simp at hq; omega)
  · exact concatenate_apply_piece 1 _ h _ 3 (by simp) _ x3 rfl rfl 96 rfl (ix2 p c) hi (by show 96 + c.val = q.val; simp at hq; omega)

section Dot

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The matrix product into the zero splat, at (p, q), for operands of any float formats: the sum over k < K of
    lhs (p, k) · rhs (k, q). -/
theorem matmul_zero_apply {φ₁ φ₂ : FTy} (prec : Option ContractPrecision) (lhs : FVec Ideal (⟨2, ![a, K]⟩ : Shape) φ₁)
    (rhs : FVec Ideal (⟨2, ![K, b]⟩ : Shape) φ₂) (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans
    (Cert.Lib.PlainDot.sum_contr D hr hs hl0 hl1 hr0 hr1 (fun i => lhs i) (fun i => rhs i) p q)

end Dot

end Cert.Lib.RowRead

end
-- ==== Proof.Region0Pay.lean ====
/-
  The projection kernel's stored blocks, entry by entry on the extended reals.

  At one grid point the body holds a block x0 of the input, [1, 1024, 512], and a whole transposed weight
  matrix w, [512, 64].  It drops the block's unit axis, multiplies the [1024, 512] rows by w into a zero
  accumulator, and stores the [1024, 64] product behind a new unit axis; for the keys it first swaps the two
  axes of the product.  A change of float format is the identity on the extended reals, so the stored entry
  (0, r, o) (for the keys: (0, o, r)) is Σ_d x0[0, r, d] · w[d, o].
-/
import proofs.«125508_j42588895707870_2_alg».proof.Proof.Gen.KernelIdeal.Skeleton
import proofs.«125508_j42588895707870_2_alg».proof.Proof.LibRowRead
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region0

open Cert.KernelIdeal Cert.KernelIdeal.Gen Idealize.ShloMosaic Idealize.ShloMosaic.ValueIdx

/-- The contraction's record: rows [1024, 512] against a matrix [512, 64]. -/
abbrev dotRec : DotDims S1024x512 S512x64 S1024x64 := dot_S1024x512_S512x64_S1024x64_1_0_0_1_n_n

theorem dot_l0 (i : S1024x64.Idx) (q : dotRec.contr.Idx) : (dotRec.lhsIdx i q 0).val = (i 0).val := by
  unfold DotDims.lhsIdx
  rw [dif_neg (show ¬(0 : Fin S1024x512.rank) ∈ dotRec.lhsBatch by decide),
    dif_pos (show (0 : Fin S1024x512.rank) ∈ dotRec.lhsNonContracting by decide)]
  rfl

theorem dot_r1 (i : S1024x64.Idx) (q : dotRec.contr.Idx) : (dotRec.rhsIdx i q 1).val = (i 1).val := by
  unfold DotDims.rhsIdx
  rw [dif_neg (show ¬(1 : Fin S512x64.rank) ∈ dotRec.rhsBatch by decide),
    dif_pos (show (1 : Fin S512x64.rank) ∈ dotRec.rhsNonContracting by decide)]
  rfl

/-- The product into the zero accumulator at (r, o): Σ_d a[r, d] · b[d, o]. -/
theorem prod_apply {φ₁ φ₂ : FTy} (a : FVec Ideal S1024x512 φ₁) (b : FVec Ideal S512x64 φ₂) (r : Fin 1024) (o : Fin 64) :
    matmul dotRec none a b (constant S1024x64 .f32 0x00000000#32) (ix2 r o) = ∑ d : Fin 512, a (ix2 r d) * b (ix2 d o) :=
  Cert.Lib.RowRead.matmul_zero_apply dotRec rfl rfl dot_l0
    (fun i q => dotRec.lhsIdx_val_of_single rfl i q) (fun i q => dotRec.rhsIdx_val_of_single rfl i q) dot_r1 none a b r o

/-- The input block with its unit axis dropped, at (r, d). -/
theorem rows_apply (x0 : Vec Ideal S1x1024x512 .f32) (r : Fin 1024) (d : Fin 512) :
    k0_pay1 x0 (ix2 r d) = x0 (ix3 (0 : Fin 1) r d) := by
  unfold k0_pay1
  show shapeCast S1024x512 x0 shapeCasts_S1x1024x512_S1024x512 (ix2 r d) = _
  refine shapeCast_apply x0 _ (ix2 r d) (ix3 (0 : Fin 1) r d) ?_
  rw [Shape.rowMajor_val_two, Shape.rowMajor_val_three]
  show (0 * 1024 + r.val) * 512 + d.val = r.val * 512 + d.val
  omega

/-- A weight block passes through its same-shape cast and its change of format unchanged. -/
theorem weight_eq (w : Vec Ideal S512x64 .f32) (h : S512x64.ShapeCasts S512x64) (hb : FTy.bits .bf16 < FTy.bits .f32) :
    (truncf .bf16 (shapeCast S512x64 w h : FVec Ideal S512x64 .f32) hb : FVec Ideal S512x64 .bf16) = w := by
  rw [shapeCast_self]; rfl

/-- The block stored for the queries and for the values: entry (0, r, o) is Σ_d x0[0, r, d] · w[d, o]. -/
theorem store_q_apply (x0 : Vec Ideal S1x1024x512 .f32) (w : Vec Ideal S512x64 .f32) (r : Fin 1024) (o : Fin 64) :
    k0_pay2 x0 w (ix3 (0 : Fin 1) r o) = ∑ d : Fin 512, x0 (ix3 (0 : Fin 1) r d) * w (ix2 d o) := by
  unfold k0_pay2
  refine (shapeCast_apply _ _ (ix3 (0 : Fin 1) r o) (ix2 r o) ?_).trans ?_
  · rw [Shape.rowMajor_val_two, Shape.rowMajor_val_three]
    show r.val * 64 + o.val = (0 * 1024 + r.val) * 64 + o.val
    omega
  · refine (prod_apply (k0_pay1 x0) _ r o).trans ?_
    refine Finset.sum_congr rfl fun d _ => ?_
    rw [rows_apply, weight_eq]

theorem store_v_apply (x0 : Vec Ideal S1x1024x512 .f32) (w : Vec Ideal S512x64 .f32) (r : Fin 1024) (o : Fin 64) :
    k0_pay4 x0 w (ix3 (0 : Fin 1) r o) = ∑ d : Fin 512, x0 (ix3 (0 : Fin 1) r d) * w (ix2 d o) := by
  unfold k0_pay4
  refine (shapeCast_apply _ _ (ix3 (0 : Fin 1) r o) (ix2 r o) ?_).trans ?_
  · rw [Shape.rowMajor_val_two, Shape.rowMajor_val_three]
    show r.val * 64 + o.val = (0 * 1024 + r.val) * 64 + o.val
    omega
  · refine (prod_apply (k0_pay1 x0) _ r o).trans ?_
    refine Finset.sum_congr rfl fun d _ => ?_
    rw [rows_apply, weight_eq]

/-- The block stored for the keys, the product with its two axes swapped: entry (0, o, r) is Σ_d x0[0, r, d] · w[d, o]. -/
theorem store_k_apply (x0 : Vec Ideal S1x1024x512 .f32) (w : Vec Ideal S512x64 .f32) (r : Fin 1024) (o : Fin 64) :
    k0_pay3 x0 w (ix3 (0 : Fin 1) o r) = ∑ d : Fin 512, x0 (ix3 (0 : Fin 1) r d) * w (ix2 d o) := by
  unfold k0_pay3
  refine (shapeCast_apply _ _ (ix3 (0 : Fin 1) o r) (ix2 o r) ?_).trans ?_
  · rw [Shape.rowMajor_val_two, Shape.rowMajor_val_three]
    show o.val * 1024 + r.val = (0 * 64 + o.val) * 1024 + r.val
    omega
  · refine (transpose_apply _ _ _ (ix2 o r) (ix2 r o) ?_).trans ?_
    · intro b
      match b with
      | ⟨0, _⟩ => rfl
      | ⟨1, _⟩ => rfl
    · refine (prod_apply (k0_pay1 x0) _ r o).trans ?_
      refine Finset.sum_congr rfl fun d _ => ?_
      rw [rows_apply, weight_eq]

end Cert.KernelIdeal.Region0

end
-- ==== Proof.Region0.lean ====
/-
  What the projection region leaves in its three output arrays, as whole-array functions of the arrays it finds.

  The region runs over a 4 × 4 grid of points (b, i).  At (b, i) it reads rows 1024·i … 1024·i + 1023 of batch b of the
  input x : [4, 4096, 512] and the three transposed weight matrices whole, [512, 64], and writes back the same rows of
  batch b of Q and of V : [4, 4096, 64], and columns 1024·i … 1024·i + 1023 of batch b of the transposed keys
  K^T : [4, 64, 4096].  An entry of a written block is Σ_d x[b, 1024·i + r, d] · W^T[d, o], which depends on the block only
  through the array index it lands on: each block is a restriction of ONE function of the whole arrays, the 16 blocks
  tile each output array, so each array ends holding that function.
-/
import proofs.«125508_j42588895707870_2_alg».proof.Proof.Gen.KernelIdeal.Frame
import proofs.«125508_j42588895707870_2_alg».proof.Proof.Spec
import proofs.«125508_j42588895707870_2_alg».proof.Proof.Region0Pay
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero3 : (![0, 0, 0] : Fin 3 → Nat) = fun _ => 0 := funext fun a => by fin_cases a <;> rfl
theorem zero2 : (![0, 0] : Fin 2 → Nat) = fun _ => 0 := funext fun a => by fin_cases a <;> rfl

/-- The block indices at a grid point, decided over the 16 points: the input block and the Q and V blocks sit at
    (b, i, 0), the key block at (b, 0, i), the weights at (0, 0); b and i are below 4. -/
theorem grid_facts : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_4.index t (0 : Fin 3) ≤ 3 ∧ win0_4.index t (1 : Fin 3) ≤ 3
    ∧ win0_5.index t (0 : Fin 3) = win0_4.index t (0 : Fin 3) ∧ win0_5.index t (1 : Fin 3) = 0
    ∧ win0_5.index t (2 : Fin 3) = win0_4.index t (1 : Fin 3)
    ∧ win0_6.index t (0 : Fin 3) = win0_4.index t (0 : Fin 3) ∧ win0_6.index t (1 : Fin 3) = win0_4.index t (1 : Fin 3)
    ∧ win0_6.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Every pair (b, i) is some point's. -/
theorem grid_onto : ∀ (q0 : Fin 4) (q1 : Fin 4), ∃ t : Fin cfg0.N,
    win0_4.index t (0 : Fin 3) = q0.val ∧ win0_4.index t (1 : Fin 3) = q1.val :=
  (by decide +kernel : ∀ (q0 : Fin 4) (q1 : Fin 4), ∃ t : Fin grid0.N,
    win0_4.index t (0 : Fin 3) = q0.val ∧ win0_4.index t (1 : Fin 3) = q1.val)

/-! ## The input blocks, read off their arrays -/

/-- An entry of the input block at a point is the input array's entry at block index × block size + the entry's own
    coordinate, axis by axis. -/
theorem x_block_apply (c : Dev nD) (t : Fin cfg0.N) (y : S1x1024x512.Idx) (k : S4x4096x512.Idx)
    (h0 : (k 0).val = win0_0.index t (0 : Fin 3) * 1 + 1 * (y 0).val)
    (h1 : (k 1).val = win0_0.index t (1 : Fin 3) * 1024 + 1 * (y 1).val)
    (h2 : (k 2).val = win0_0.index t (2 : Fin 3) * 512 + 1 * (y 2).val) :
    (iblk0 V c 0 t : Vec Ideal S1x1024x512 .f32) y = (V c main_arg0 : S4x4096x512.Idx → EReal) k := by
  unfold iblk0
  rw [View.read_apply]
  show V c main_arg0 _ = V c main_arg0 _
  refine congrArg (V c main_arg0) ?_
  funext a
  apply Fin.ext
  match a with
  | ⟨0, _⟩ => exact h0.symm
  | ⟨1, _⟩ => exact h1.symm
  | ⟨2, _⟩ => exact h2.symm

/-- A weight block is its whole array: the block index is (0, 0) at every point. -/
theorem wq_block_apply (c : Dev nD) (t : Fin cfg0.N) (y k : S512x64.Idx)
    (h0 : (k 0).val = win0_1.index t (0 : Fin 2) * 512 + 1 * (y 0).val)
    (h1 : (k 1).val = win0_1.index t (1 : Fin 2) * 64 + 1 * (y 1).val) :
    (iblk0 V c 1 t : Vec Ideal S512x64 .f32) y = (V c main_v0 : S512x64.Idx → EReal) k := by
  unfold iblk0
  rw [View.read_apply]
  show V c main_v0 _ = V c main_v0 _
  refine congrArg (V c main_v0) ?_
  funext a
  apply Fin.ext
  match a with
  | ⟨0, _⟩ => exact h0.symm
  | ⟨1, _⟩ => exact h1.symm

theorem wk_block_apply (c : Dev nD) (t : Fin cfg0.N) (y k : S512x64.Idx)
    (h0 : (k 0).val = win0_2.index t (0 : Fin 2) * 512 + 1 * (y 0).val)
    (h1 : (k 1).val = win0_2.index t (1 : Fin 2) * 64 + 1 * (y 1).val) :
    (iblk0 V c 2 t : Vec Ideal S512x64 .f32) y = (V c main_v1 : S512x64.Idx → EReal) k := by
  unfold iblk0
  rw [View.read_apply]
  show V c main_v1 _ = V c main_v1 _
  refine congrArg (V c main_v1) ?_
  funext a
  apply Fin.ext
  match a with
  | ⟨0, _⟩ => exact h0.symm
  | ⟨1, _⟩ => exact h1.symm

theorem wv_block_apply (c : Dev nD) (t : Fin cfg0.N) (y k : S512x64.Idx)
    (h0 : (k 0).val = win0_3.index t (0 : Fin 2) * 512 + 1 * (y 0).val)
    (h1 : (k 1).val = win0_3.index t (1 : Fin 2) * 64 + 1 * (y 1).val) :
    (iblk0 V c 3 t : Vec Ideal S512x64 .f32) y = (V c main_v2 : S512x64.Idx → EReal) k := by
  unfold iblk0
  rw [View.read_apply]
  show V c main_v2 _ = V c main_v2 _
  refine congrArg (V c main_v2) ?_
  funext a
  apply Fin.ext
  match a with
  | ⟨0, _⟩ => exact h0.symm
  | ⟨1, _⟩ => exact h1.symm

/-! ## The queries: window 4 -/

/-- What a point writes back to Q is its block of the projection of the input by the first weight matrix. -/
theorem flushed_q (c : Dev nD) (t : Fin cfg0.N) :
    (dat0 V c).flushed 4 t
      = ((cfg0.win 4).blk t).view.read (Elt Ideal) (Cert.Attn.projBy (V c main_arg0) (V c main_v0)) := by
  show (cfg0.win 4).cut (grid0.coords t) ((dat0 V c).after 4 t) = _
  rw [after0_4]
  unfold out0_4
  rw [View.canon_unit_zero zero3]
  simp only [View.ld_unit_zero (S := S1x1024x512) zero3, View.ld_unit_zero (S := S512x64) zero2]
  obtain ⟨e0, e1, e2, e3, e4, e5, e6, e7, e8, e9, e10, e11, e12, e13, e14, e15, e16, e17⟩ := grid_facts t
  funext j
  obtain ⟨z, r, o, rfl⟩ : ∃ (z : Fin 1) (r : Fin 1024) (o : Fin 64), j = ix3 z r o := ⟨j 0, j 1, j 2, eq_ix3 j⟩
  obtain rfl : z = 0 := Subsingleton.elim _ _
  show k0_pay2 (iblk0 V c 0 t) (iblk0 V c 1 t) (ix3 (0 : Fin 1) r o)
    = Cert.Attn.projBy (V c main_arg0) (V c main_v0) (((cfg0.win 4).blk t).view.emb (ix3 (0 : Fin 1) r o))
  refine (store_q_apply (iblk0 V c 0 t) (iblk0 V c 1 t) r o).trans ?_
  unfold Cert.Attn.projBy
  refine Finset.sum_congr rfl fun d _ => ?_
  refine congrArg₂ (· * ·) ?_ ?_
  · refine x_block_apply V c t _ _ ?_ ?_ ?_
    · show win0_4.index t (0 : Fin 3) * 1 + 1 * 0 = win0_0.index t (0 : Fin 3) * 1 + 1 * 0
      omega
    · show win0_4.index t (1 : Fin 3) * 1024 + 1 * r.val = win0_0.index t (1 : Fin 3) * 1024 + 1 * r.val
      omega
    · show d.val = win0_0.index t (2 : Fin 3) * 512 + 1 * d.val
      omega
  · refine wq_block_apply V c t _ _ ?_ ?_
    · show d.val = win0_1.index t (0 : Fin 2) * 512 + 1 * d.val
      omega
    · show win0_4.index t (2 : Fin 3) * 64 + 1 * o.val = win0_1.index t (1 : Fin 2) * 64 + 1 * o.val
      omega

/-- An index of Q is in a point's block iff each coordinate is in the block's range on its axis. -/
theorem mem_blk_q (t : Fin cfg0.N) (i : S4x4096x64.Idx) :
    i ∈ ((cfg0.win 4).blk t).view.set ↔ ∀ a : Fin 3, win0_4.index t a * S1x1024x64.size a ≤ (i a).val
      ∧ (i a).val < win0_4.index t a * S1x1024x64.size a + S1x1024x64.size a := by
  show i ∈ ((View.whole main_v3_0).slice (win0_4.rect t)).set ↔ _
  rw [View.set_slice_whole, Rect.mem_set_unit]
  exact Iff.rfl

/-- The 16 blocks tile Q: row s of batch b is in the block of the point (b, s / 1024). -/
theorem cover_q (i : S4x4096x64.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 64 := (i 2).isLt
  obtain ⟨t, q0, q1⟩ := grid_onto ⟨(i 0).val, hi0⟩ ⟨(i 1).val / 1024, by omega⟩
  have q0' : win0_4.index t (0 : Fin 3) = (i 0).val := q0
  have q1' : win0_4.index t (1 : Fin 3) = (i 1).val / 1024 := q1
  obtain ⟨e0, e1, e2, e3, e4, e5, e6, e7, e8, e9, e10, e11, e12, e13, e14, e15, e16, e17⟩ := grid_facts t
  refine ⟨t, flush0_4 t, ?_⟩
  rw [mem_blk_q]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1024 ≤ (i 1).val ∧ (i 1).val < win0_4.index t (1 : Fin 3) * 1024 + 1024
    omega
  | ⟨2, _⟩ =>
    show win0_4.index t (2 : Fin 3) * 64 ≤ (i 2).val ∧ (i 2).val < win0_4.index t (2 : Fin 3) * 64 + 64
    omega

/-- Q after the region: entry (b, s, o) is Σ_d x[b, s, d] · Wq^T[d, o]. -/
theorem final0_4 (c : Dev nD) :
    (dat0 V c).arrAt 4 cfg0.N = Cert.Attn.projBy (V c main_arg0) (V c main_v0) :=
  (dat0 V c).arrAt_eq_of_cover 4 (Cert.Attn.projBy (V c main_arg0) (V c main_v0)) (fun t _ => flushed_q V c t) cover_q

/-! ## The values: window 6 -/

/-- What a point writes back to V is its block of the projection of the input by the third weight matrix. -/
theorem flushed_v (c : Dev nD) (t : Fin cfg0.N) :
    (dat0 V c).flushed 6 t
      = ((cfg0.win 6).blk t).view.read (Elt Ideal) (Cert.Attn.projBy (V c main_arg0) (V c main_v2)) := by
  show (cfg0.win 6).cut (grid0.coords t) ((dat0 V c).after 6 t) = _
  rw [after0_6]
  unfold out0_6
  rw [View.canon_unit_zero zero3]
  simp only [View.ld_unit_zero (S := S1x1024x512) zero3, View.ld_unit_zero (S := S512x64) zero2]
  obtain ⟨e0, e1, e2, e3, e4, e5, e6, e7, e8, e9, e10, e11, e12, e13, e14, e15, e16, e17⟩ := grid_facts t
  funext j
  obtain ⟨z, r, o, rfl⟩ : ∃ (z : Fin 1) (r : Fin 1024) (o : Fin 64), j = ix3 z r o := ⟨j 0, j 1, j 2, eq_ix3 j⟩
  obtain rfl : z = 0 := Subsingleton.elim _ _
  show k0_pay4 (iblk0 V c 0 t) (iblk0 V c 3 t) (ix3 (0 : Fin 1) r o)
    = Cert.Attn.projBy (V c main_arg0) (V c main_v2) (((cfg0.win 6).blk t).view.emb (ix3 (0 : Fin 1) r o))
  refine (store_v_apply (iblk0 V c 0 t) (iblk0 V c 3 t) r o).trans ?_
  unfold Cert.Attn.projBy
  refine Finset.sum_congr rfl fun d _ => ?_
  refine congrArg₂ (· * ·) ?_ ?_
  · refine x_block_apply V c t _ _ ?_ ?_ ?_
    · show win0_6.index t (0 : Fin 3) * 1 + 1 * 0 = win0_0.index t (0 : Fin 3) * 1 + 1 * 0
      omega
    · show win0_6.index t (1 : Fin 3) * 1024 + 1 * r.val = win0_0.index t (1 : Fin 3) * 1024 + 1 * r.val
      omega
    · show d.val = win0_0.index t (2 : Fin 3) * 512 + 1 * d.val
      omega
  · refine wv_block_apply V c t _ _ ?_ ?_
    · show d.val = win0_3.index t (0 : Fin 2) * 512 + 1 * d.val
      omega
    · show win0_6.index t (2 : Fin 3) * 64 + 1 * o.val = win0_3.index t (1 : Fin 2) * 64 + 1 * o.val
      omega

/-- An index of V is in a point's block iff each coordinate is in the block's range on its axis. -/
theorem mem_blk_v (t : Fin cfg0.N) (i : S4x4096x64.Idx) :
    i ∈ ((cfg0.win 6).blk t).view.set ↔ ∀ a : Fin 3, win0_6.index t a * S1x1024x64.size a ≤ (i a).val
      ∧ (i a).val < win0_6.index t a * S1x1024x64.size a + S1x1024x64.size a := by
  show i ∈ ((View.whole main_v3_2).slice (win0_6.rect t)).set ↔ _
  rw [View.set_slice_whole, Rect.mem_set_unit]
  exact Iff.rfl

/-- The 16 blocks tile V, as they tile Q. -/
theorem cover_v (i : S4x4096x64.Idx) :
    ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 64 := (i 2).isLt
  obtain ⟨t, q0, q1⟩ := grid_onto ⟨(i 0).val, hi0⟩ ⟨(i 1).val / 1024, by omega⟩
  have q0' : win0_4.index t (0 : Fin 3) = (i 0).val := q0
  have q1' : win0_4.index t (1 : Fin 3) = (i 1).val / 1024 := q1
  obtain ⟨e0, e1, e2, e3, e4, e5, e6, e7, e8, e9, e10, e11, e12, e13, e14, e15, e16, e17⟩ := grid_facts t
  refine ⟨t, flush0_6 t, ?_⟩
  rw [mem_blk_v]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 1024 ≤ (i 1).val ∧ (i 1).val < win0_6.index t (1 : Fin 3) * 1024 + 1024
    omega
  | ⟨2, _⟩ =>
    show win0_6.index t (2 : Fin 3) * 64 ≤ (i 2).val ∧ (i 2).val < win0_6.index t (2 : Fin 3) * 64 + 64
    omega

/-- V after the region: entry (b, s, o) is Σ_d x[b, s, d] · Wv^T[d, o]. -/
theorem final0_6 (c : Dev nD) :
    (dat0 V c).arrAt 6 cfg0.N = Cert.Attn.projBy (V c main_arg0) (V c main_v2) :=
  (dat0 V c).arrAt_eq_of_cover 6 (Cert.Attn.projBy (V c main_arg0) (V c main_v2)) (fun t _ => flushed_v V c t) cover_v

/-! ## The transposed keys: window 5 -/

/-- What a point writes back to K^T is its block of the transposed projection of the input by the second weight
    matrix: the block's entry (0, o, r) lands on (b, o, 1024·i + r). -/
theorem flushed_k (c : Dev nD) (t : Fin cfg0.N) :
    (dat0 V c).flushed 5 t
      = ((cfg0.win 5).blk t).view.read (Elt Ideal) (Cert.Attn.projByT (V c main_arg0) (V c main_v1)) := by
  show (cfg0.win 5).cut (grid0.coords t) ((dat0 V c).after 5 t) = _
  rw [after0_5]
  unfold out0_5
  rw [View.canon_unit_zero zero3]
  simp only [View.ld_unit_zero (S := S1x1024x512) zero3, View.ld_unit_zero (S := S512x64) zero2]
  obtain ⟨e0, e1, e2, e3, e4, e5, e6, e7, e8, e9, e10, e11, e12, e13, e14, e15, e16, e17⟩ := grid_facts t
  funext j
  obtain ⟨z, o, r, rfl⟩ : ∃ (z : Fin 1) (o : Fin 64) (r : Fin 1024), j = ix3 z o r := ⟨j 0, j 1, j 2, eq_ix3 j⟩
  obtain rfl : z = 0 := Subsingleton.elim _ _
  show k0_pay3 (iblk0 V c 0 t) (iblk0 V c 2 t) (ix3 (0 : Fin 1) o r)
    = Cert.Attn.projByT (V c main_arg0) (V c main_v1) (((cfg0.win 5).blk t).view.emb (ix3 (0 : Fin 1) o r))
  refine (store_k_apply (iblk0 V c 0 t) (iblk0 V c 2 t) r o).trans ?_
  unfold Cert.Attn.projByT
  refine Finset.sum_congr rfl fun d _ => ?_
  refine congrArg₂ (· * ·) ?_ ?_
  · refine x_block_apply V c t _ _ ?_ ?_ ?_
    · show win0_5.index t (0 : Fin 3) * 1 + 1 * 0 = win0_0.index t (0 : Fin 3) * 1 + 1 * 0
      omega
    · show win0_5.index t (2 : Fin 3) * 1024 + 1 * r.val = win0_0.index t (1 : Fin 3) * 1024 + 1 * r.val
      omega
    · show d.val = win0_0.index t (2 : Fin 3) * 512 + 1 * d.val
      omega
  · refine wk_block_apply V c t _ _ ?_ ?_
    · show d.val = win0_2.index t (0 : Fin 2) * 512 + 1 * d.val
      omega
    · show win0_5.index t (1 : Fin 3) * 64 + 1 * o.val = win0_2.index t (1 : Fin 2) * 64 + 1 * o.val
      omega

/-- An index of K^T is in a point's block iff each coordinate is in the block's range on its axis. -/
theorem mem_blk_k (t : Fin cfg0.N) (i : S4x64x4096.Idx) :
    i ∈ ((cfg0.win 5).blk t).view.set ↔ ∀ a : Fin 3, win0_5.index t a * S1x64x1024.size a ≤ (i a).val
      ∧ (i a).val < win0_5.index t a * S1x64x1024.size a + S1x64x1024.size a := by
  show i ∈ ((View.whole main_v3_1).slice (win0_5.rect t)).set ↔ _
  rw [View.set_slice_whole, Rect.mem_set_unit]
  exact Iff.rfl

/-- The 16 blocks tile K^T: column s of batch b is in the block of the point (b, s / 1024). -/
theorem cover_k (i : S4x64x4096.Idx) :
    ∃ t : Fin cfg0.N, (cfg0.win 5).flush t = true ∧ i ∈ ((cfg0.win 5).blk t).view.set := by
  have hi0 : (i 0).val < 4 := (i 0).isLt
  have hi1 : (i 1).val < 64 := (i 1).isLt
  have hi2 : (i 2).val < 4096 := (i 2).isLt
  obtain ⟨t, q0, q1⟩ := grid_onto ⟨(i 0).val, hi0⟩ ⟨(i 2).val / 1024, by omega⟩
  have q0' : win0_4.index t (0 : Fin 3) = (i 0).val := q0
  have q1' : win0_4.index t (1 : Fin 3) = (i 2).val / 1024 := q1
  obtain ⟨e0, e1, e2, e3, e4, e5, e6, e7, e8, e9, e10, e11, e12, e13, e14, e15, e16, e17⟩ := grid_facts t
  refine ⟨t, flush0_5 t, ?_⟩
  rw [mem_blk_k]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 64 ≤ (i 1).val ∧ (i 1).val < win0_5.index t (1 : Fin 3) * 64 + 64
    omega
  | ⟨2, _⟩ =>
    show win0_5.index t (2 : Fin 3) * 1024 ≤ (i 2).val ∧ (i 2).val < win0_5.index t (2 : Fin 3) * 1024 + 1024
    omega

/-- K^T after the region: entry (b, o, s) is Σ_d x[b, s, d] · Wk^T[d, o]. -/
theorem final0_5 (c : Dev nD) :
    (dat0 V c).arrAt 5 cfg0.N = Cert.Attn.projByT (V c main_arg0) (V c main_v1) :=
  (dat0 V c).arrAt_eq_of_cover 5 (Cert.Attn.projByT (V c main_arg0) (V c main_v1)) (fun t _ => flushed_k V c t) cover_k

end Cert.KernelIdeal.Region0

end
-- ==== Proof.Region1Pay.lean ====
/-
  The attention region's body read at an index of its output block.

  At a grid point the body holds a query block q[0, r, o] (512 rows, 64 features), the batch's keys transposed
  kt[0, o, k] (64 features, 4096 keys) and the batch's values v[0, k, o].  Row r's score against key k is
  (Σ_o q[0, r, o] · kt[0, o, k]) · (1/8); the row's maximum is folded from −∞ over the 4096 keys; the exponential
  of score minus maximum is taken entry by entry; the row's sum of exponentials L and the product of the
  exponentials with the values are formed, and the stored block at (0, r, o) is
      (Σ_k exp(score[r, k] − max[r]) · v[0, k, o]) / (Σ_k exp(score[r, k] − max[r])).
  Changes of float format are the identity on extended reals, the two matrix products into the zero splat are plain
  sums, and the two reductions are a fold of max and a sum over the key axis.
-/
import proofs.«125508_j42588895707870_2_alg».proof.Proof.Gen.KernelIdeal.Skeleton
import proofs.«125508_j42588895707870_2_alg».proof.Proof.LibRowRead
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region1

open Cert.KernelIdeal Cert.KernelIdeal.Gen Idealize.ShloMosaic Idealize.ShloMosaic.ValueIdx

/-- Row r's score against key k: (Σ_o q[0, r, o] · kt[0, o, k]) · (1/8), the scale as its f32 word. -/
def bscore (q : S1x512x64.Idx → EReal) (kt : S1x64x4096.Idx → EReal) (r : Fin 512) (k : Fin 4096) : EReal :=
  (∑ o : Fin 64, q (ix3 (0 : Fin 1) r o) * kt (ix3 (0 : Fin 1) o k)) * Ideal.ofBits .f32 0x3E000000#32

/-- Row r's maximum score, folded from the word of −∞. -/
def bmax (q : S1x512x64.Idx → EReal) (kt : S1x64x4096.Idx → EReal) (r : Fin 512) : EReal :=
  (Finset.univ : Finset (Fin 4096)).fold max (Ideal.ofBits .f32 0xFF800000#32) (fun k => bscore q kt r k)

/-- exp (score − the row's maximum). -/
def bexp (q : S1x512x64.Idx → EReal) (kt : S1x64x4096.Idx → EReal) (r : Fin 512) (k : Fin 4096) : EReal :=
  Ideal.exp (bscore q kt r k - bmax q kt r)

/-! ## The dimension records' coordinates -/

theorem dotQK_l0 (i : S512x4096.Idx) (c : dot_S512x64_S64x4096_S512x4096_1_0_0_1_n_n.contr.Idx) :
    (dot_S512x64_S64x4096_S512x4096_1_0_0_1_n_n.lhsIdx i c 0).val = (i 0).val := by
  unfold DotDims.lhsIdx
  rw [dif_neg (show ¬(0 : Fin S512x64.rank) ∈ dot_S512x64_S64x4096_S512x4096_1_0_0_1_n_n.lhsBatch by decide), dif_pos (show (0 : Fin S512x64.rank) ∈ dot_S512x64_S64x4096_S512x4096_1_0_0_1_n_n.lhsNonContracting by decide)]
  rfl
theorem dotQK_r1 (i : S512x4096.Idx) (c : dot_S512x64_S64x4096_S512x4096_1_0_0_1_n_n.contr.Idx) :
    (dot_S512x64_S64x4096_S512x4096_1_0_0_1_n_n.rhsIdx i c 1).val = (i 1).val := by
  unfold DotDims.rhsIdx
  rw [dif_neg (show ¬(1 : Fin S64x4096.rank) ∈ dot_S512x64_S64x4096_S512x4096_1_0_0_1_n_n.rhsBatch by decide), dif_pos (show (1 : Fin S64x4096.rank) ∈ dot_S512x64_S64x4096_S512x4096_1_0_0_1_n_n.rhsNonContracting by decide)]
  rfl
theorem dotPV_l0 (i : S512x64.Idx) (c : dot_S512x4096_S4096x64_S512x64_1_0_0_1_n_n.contr.Idx) :
    (dot_S512x4096_S4096x64_S512x64_1_0_0_1_n_n.lhsIdx i c 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem dotPV_r1 (i : S512x64.Idx) (c : dot_S512x4096_S4096x64_S512x64_1_0_0_1_n_n.contr.Idx) :
    (dot_S512x4096_S4096x64_S512x64_1_0_0_1_n_n.rhsIdx i c 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-! ## The stages -/

/-- The scaled scores of a block, as the body forms them. -/
def scoreVec (q : FVec Ideal S1x512x64 .bf16) (kt : FVec Ideal S1x64x4096 .bf16) : FVec Ideal S512x4096 .f32 :=
  mulf (matmul dot_S512x64_S64x4096_S512x4096_1_0_0_1_n_n none
      (shapeCast S512x64 q shapeCasts_S1x512x64_S512x64 : FVec Ideal S512x64 .bf16)
      (shapeCast S64x4096 kt shapeCasts_S1x64x4096_S64x4096 : FVec Ideal S64x4096 .bf16)
      (constant S512x4096 .f32 0x00000000#32))
    (broadcast S512x4096 (Scalar.ofBits .f32 0x3E000000#32))

theorem scoreVec_apply (q : FVec Ideal S1x512x64 .bf16) (kt : FVec Ideal S1x64x4096 .bf16) (r : Fin 512) (k : Fin 4096) :
    scoreVec q kt (ix2 r k) = bscore q kt r k := by
  unfold scoreVec bscore
  rw [mulf_apply, broadcast_apply,
    Cert.Lib.RowRead.matmul_zero_apply dot_S512x64_S64x4096_S512x4096_1_0_0_1_n_n rfl rfl dotQK_l0
      (fun i c => dot_S512x64_S64x4096_S512x4096_1_0_0_1_n_n.lhsIdx_val_of_single rfl i c)
      (fun i c => dot_S512x64_S64x4096_S512x4096_1_0_0_1_n_n.rhsIdx_val_of_single rfl i c) dotQK_r1]
  refine congrArg₂ (· * ·) (Finset.sum_congr rfl fun o _ => ?_) rfl
  rw [shapeCast_1ab_ab_apply, shapeCast_1ab_ab_apply]

/-- The row maxima of a block, as the body forms them. -/
def maxVec (q : FVec Ideal S1x512x64 .bf16) (kt : FVec Ideal S1x64x4096 .bf16) : FVec Ideal S512 .f32 :=
  multiReduction .maximumf [1] S512 (scoreVec q kt) 0xFF800000#32 reduces_S512x4096_S512 (.inl rfl) rfl

theorem maxVec_apply (q : FVec Ideal S1x512x64 .bf16) (kt : FVec Ideal S1x64x4096 .bf16) (r : Fin 512) :
    maxVec q kt (ix1 r) = bmax q kt r := by
  unfold maxVec bmax
  refine (Ideal.multiReduction_maximumf_single (scoreVec q kt) 0xFF800000#32 reduces_S512x4096_S512 (.inl rfl) rfl (ix1 r)).trans ?_
  refine congrArg (fun f => (Finset.univ : Finset (Fin 4096)).fold max (Ideal.ofBits .f32 0xFF800000#32) f) (funext fun k => ?_)
  show scoreVec q kt (reduces_S512x4096_S512.lift (ix1 r) k) = _
  rw [Cert.Lib.RowRead.lift_row]
  exact scoreVec_apply q kt r ⟨k.val, k.isLt⟩

/-- The exponentials of a block, as the body forms them. -/
def expVec (q : FVec Ideal S1x512x64 .bf16) (kt : FVec Ideal S1x64x4096 .bf16) : FVec Ideal S512x4096 .f32 :=
  exp (subf (scoreVec q kt) (broadcastTo S512x4096 (shapeCast S512x1 (maxVec q kt) shapeCasts_S512_S512x1) broadcasts_S512x1_S512x4096))

theorem expVec_apply (q : FVec Ideal S1x512x64 .bf16) (kt : FVec Ideal S1x64x4096 .bf16) (r : Fin 512) (k : Fin 4096) :
    expVec q kt (ix2 r k) = bexp q kt r k := by
  unfold expVec bexp
  show Ideal.exp (scoreVec q kt (ix2 r k) - broadcastTo S512x4096 (shapeCast S512x1 (maxVec q kt) shapeCasts_S512_S512x1) broadcasts_S512x1_S512x4096 (ix2 r k)) = _
  rw [Cert.Lib.RowRead.broadcastTo_a1_ab_apply, Cert.Lib.RowRead.shapeCast_a_a1_apply, scoreVec_apply, maxVec_apply]

/-- The row sums of the exponentials, as the body forms them. -/
def sumVec (q : FVec Ideal S1x512x64 .bf16) (kt : FVec Ideal S1x64x4096 .bf16) : FVec Ideal S512 .f32 :=
  multiReduction .add [1] S512 (expVec q kt) 0x00000000#32 reduces_S512x4096_S512 (.inl rfl) rfl

theorem sumVec_apply (q : FVec Ideal S1x512x64 .bf16) (kt : FVec Ideal S1x64x4096 .bf16) (r : Fin 512) :
    sumVec q kt (ix1 r) = ∑ k : Fin 4096, bexp q kt r k := by
  unfold sumVec
  refine (Cert.Lib.RowRead.rowSum_apply (expVec q kt) 0x00000000#32 reduces_S512x4096_S512 (.inl rfl) rfl r).trans ?_
  exact Finset.sum_congr rfl fun k _ => expVec_apply q kt r k

/-- The body's stored value is the quotient of the weighted sum of the values by the sum of the exponentials. -/
theorem pay1_eq (q : FVec Ideal S1x512x64 .bf16) (kt : FVec Ideal S1x64x4096 .bf16) (v : FVec Ideal S1x4096x64 .bf16) :
    k1_pay1 (F := Ideal) q kt v
      = shapeCast S1x512x64
          (divf (matmul dot_S512x4096_S4096x64_S512x64_1_0_0_1_n_n none (truncf .bf16 (expVec q kt) bitsLt_bf16_f32 : FVec Ideal S512x4096 .bf16)
              (shapeCast S4096x64 v shapeCasts_S1x4096x64_S4096x64 : FVec Ideal S4096x64 .bf16) (constant S512x64 .f32 0x00000000#32))
            (broadcastTo S512x64 (shapeCast S512x1 (sumVec q kt) shapeCasts_S512_S512x1) broadcasts_S512x1_S512x64))
          shapeCasts_S512x64_S1x512x64 := by
  unfold k1_pay1 sumVec expVec maxVec scoreVec
  rfl

/-- The stored block at (0, r, o). -/
theorem pay1_apply (q : FVec Ideal S1x512x64 .bf16) (kt : FVec Ideal S1x64x4096 .bf16) (v : FVec Ideal S1x4096x64 .bf16)
    (r : Fin 512) (o : Fin 64) :
    k1_pay1 (F := Ideal) q kt v (ix3 (0 : Fin 1) r o)
      = Ideal.div (∑ k : Fin 4096, bexp q kt r k * v (ix3 (0 : Fin 1) k o)) (∑ k : Fin 4096, bexp q kt r k) := by
  rw [pay1_eq, shapeCast_ab_1ab_apply, divf_apply,
    Cert.Lib.RowRead.matmul_zero_apply dot_S512x4096_S4096x64_S512x64_1_0_0_1_n_n rfl rfl dotPV_l0
      (fun i c => dot_S512x4096_S4096x64_S512x64_1_0_0_1_n_n.lhsIdx_val_of_single rfl i c)
      (fun i c => dot_S512x4096_S4096x64_S512x64_1_0_0_1_n_n.rhsIdx_val_of_single rfl i c) dotPV_r1,
    Cert.Lib.RowRead.broadcastTo_a1_ab_apply, Cert.Lib.RowRead.shapeCast_a_a1_apply, sumVec_apply]
  refine congrArg₂ Ideal.div (Finset.sum_congr rfl fun k _ => ?_) rfl
  rw [truncf_apply, expVec_apply, shapeCast_1ab_ab_apply]

end Cert.KernelIdeal.Region1

end
-- ==== Proof.Region1.lean ====
/-
  The attention region's output array after the region, as one function of the three arrays the region finds.

  The grid is 4 batches × 8 row tiles.  At the point (b, i) the query window's block is rows 512·i … 512·i + 511 of
  batch b of the query array, the key and value windows' blocks are batch b's whole [64, 4096] and [4096, 64]
  slabs, and the output window's block is rows 512·i … 512·i + 511 of batch b of the result.  So what the point
  writes back is, at (b, 512·i + r, o), the body's quotient for row r: its scores are row 512·i + r of the query
  array against batch b's keys, which is exactly entry (b, 512·i + r, o) of the attention function of the three
  WHOLE arrays.  The 32 output blocks tile the result array, so the array ends holding that function everywhere.
-/
import proofs.«125508_j42588895707870_2_alg».proof.Proof.Gen.KernelIdeal.Frame
import proofs.«125508_j42588895707870_2_alg».proof.Proof.Region1Pay
import proofs.«125508_j42588895707870_2_alg».proof.Proof.Spec
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl

/-- The exponentials of a block are those of the whole arrays when the block's rows are the arrays' rows. -/
theorem bexp_eq (qb : S1x512x64.Idx → EReal) (ktb : S1x64x4096.Idx → EReal)
    (Q : Cert.Attn.SO.Idx → EReal) (KT : Cert.Attn.SKT.Idx → EReal) (b : Fin 4) (q0 : Fin 4096) (r : Fin 512)
    (hq : ∀ o : Fin 64, qb (ix3 (0 : Fin 1) r o) = Q (ix3 b q0 o))
    (hk : ∀ (o : Fin 64) (k : Fin 4096), ktb (ix3 (0 : Fin 1) o k) = KT (ix3 b o k)) (k : Fin 4096) :
    bexp qb ktb r k = Cert.Attn.pexpOf Q KT b q0 k := by
  have hs : ∀ k' : Fin 4096, bscore qb ktb r k' = Cert.Attn.scoreOf Q KT b q0 k' := fun k' => by
    unfold bscore Cert.Attn.scoreOf
    exact congrArg₂ (· * ·) (Finset.sum_congr rfl fun o _ => by rw [hq o, hk o k']) rfl
  unfold bexp Cert.Attn.pexpOf bmax Cert.Attn.rowmaxOf
  rw [hs k, show (fun k' => bscore qb ktb r k') = fun k' => Cert.Attn.scoreOf Q KT b q0 k' from funext hs]

/-- The printed index maps, decided over the grid: the query and output blocks sit at (b, i, 0), the key and value
    blocks at (b, 0, 0), and the output's block indices stay in their ranges. -/
theorem idx_facts3 : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (2 : Fin 3) = 0 ∧ win1_3.index t (0 : Fin 3) ≤ 3 ∧ win1_3.index t (1 : Fin 3) ≤ 7 :=
  (by decide +kernel : ∀ t : Fin grid1.N, _)

/-- Every block of the result array is some point's. -/
theorem idx_onto3 : ∀ (q0 : Fin 4) (q1 : Fin 8), ∃ t : Fin cfg1.N, win1_3.index t = ![q0.val, q1.val, 0] :=
  (by decide +kernel : ∀ (q0 : Fin 4) (q1 : Fin 8), ∃ t : Fin grid1.N, win1_3.index t = ![q0.val, q1.val, 0])

/-- What point t writes back is block t of the attention function of the three arrays as the region finds them. -/
theorem flushed3_eq (c : Dev nD) (t : Fin cfg1.N) :
    (dat1 V c).flushed 3 t
      = ((cfg1.win 3).blk t).view.read (Elt Ideal) (Cert.Attn.attnOf (V c main_v3_0) (V c main_v3_1) (V c main_v3_2)) := by
  show (cfg1.win 3).cut (grid1.coords t) ((dat1 V c).after 3 t) = _
  rw [after1_3]
  unfold out1_3
  rw [View.canon_unit_zero hz3]
  simp only [View.ld_unit_zero (S := S1x512x64) hz3, View.ld_unit_zero (S := S1x64x4096) hz3, View.ld_unit_zero (S := S1x4096x64) hz3]
  obtain ⟨e00, e01, e02, e10, e11, e12, e20, e21, e22, e32, b30, b31⟩ := idx_facts3 t
  funext j
  obtain ⟨u, r, o, rfl⟩ : ∃ (u : Fin 1) (r : Fin 512) (o : Fin 64), j = ix3 u r o := ⟨j 0, j 1, j 2, eq_ix3 j⟩
  obtain rfl : u = 0 := Subsingleton.elim _ _
  obtain ⟨i, hi⟩ : ∃ i : S4x4096x64.Idx, i = ((cfg1.win 3).blk t).view.emb (ix3 (0 : Fin 1) r o) := ⟨_, rfl⟩
  have i0 : (i 0).val = win1_3.index t (0 : Fin 3) * 1 + 1 * 0 := by rw [hi]; rfl
  have i1 : (i 1).val = win1_3.index t (1 : Fin 3) * 512 + 1 * r.val := by rw [hi]; rfl
  have i2 : (i 2).val = win1_3.index t (2 : Fin 3) * 64 + 1 * o.val := by rw [hi]; rfl
  show k1_pay1 (F := Ideal) (iblk1 V c 0 t) (iblk1 V c 1 t) (iblk1 V c 2 t) (ix3 (0 : Fin 1) r o)
    = Cert.Attn.attnOf (V c main_v3_0) (V c main_v3_1) (V c main_v3_2) (((cfg1.win 3).blk t).view.emb (ix3 (0 : Fin 1) r o))
  rw [← hi]
  refine (pay1_apply (iblk1 V c 0 t) (iblk1 V c 1 t) (iblk1 V c 2 t) r o).trans ?_
  -- each input block read where the output's rectangle says
  have hq : ∀ o' : Fin 64, iblk1 V c 0 t (ix3 (0 : Fin 1) r o') = V c main_v3_0 (ix3 (i 0) (i 1) o') := fun o' => by
    show V c main_v3_0 (((cfg1.win 0).blk t).view.emb (ix3 (0 : Fin 1) r o')) = _
    refine congrArg (V c main_v3_0) (funext fun a => Fin.ext ?_)
    match a with
    | ⟨0, _⟩ => show win1_0.index t (0 : Fin 3) * 1 + 1 * 0 = (i 0).val; omega
    | ⟨1, _⟩ => show win1_0.index t (1 : Fin 3) * 512 + 1 * r.val = (i 1).val; omega
    | ⟨2, _⟩ => show win1_0.index t (2 : Fin 3) * 64 + 1 * o'.val = o'.val; omega
  have hk : ∀ (o' : Fin 64) (k : Fin 4096), iblk1 V c 1 t (ix3 (0 : Fin 1) o' k) = V c main_v3_1 (ix3 (i 0) o' k) := fun o' k => by
    show V c main_v3_1 (((cfg1.win 1).blk t).view.emb (ix3 (0 : Fin 1) o' k)) = _
    refine congrArg (V c main_v3_1) (funext fun a => Fin.ext ?_)
    match a with
    | ⟨0, _⟩ => show win1_1.index t (0 : Fin 3) * 1 + 1 * 0 = (i 0).val; omega
    | ⟨1, _⟩ => show win1_1.index t (1 : Fin 3) * 64 + 1 * o'.val = o'.val; omega
    | ⟨2, _⟩ => show win1_1.index t (2 : Fin 3) * 4096 + 1 * k.val = k.val; omega
  have hv : ∀ k : Fin 4096, iblk1 V c 2 t (ix3 (0 : Fin 1) k o) = V c main_v3_2 (ix3 (i 0) k (i 2)) := fun k => by
    show V c main_v3_2 (((cfg1.win 2).blk t).view.emb (ix3 (0 : Fin 1) k o)) = _
    refine congrArg (V c main_v3_2) (funext fun a => Fin.ext ?_)
    match a with
    | ⟨0, _⟩ => show win1_2.index t (0 : Fin 3) * 1 + 1 * 0 = (i 0).val; omega
    | ⟨1, _⟩ => show win1_2.index t (1 : Fin 3) * 4096 + 1 * k.val = k.val; omega
    | ⟨2, _⟩ => show win1_2.index t (2 : Fin 3) * 64 + 1 * o.val = (i 2).val; omega
  have hp : ∀ k : Fin 4096, bexp (iblk1 V c 0 t) (iblk1 V c 1 t) r k
      = Cert.Attn.pexpOf (V c main_v3_0) (V c main_v3_1) (i 0) (i 1) k :=
    fun k => bexp_eq (iblk1 V c 0 t) (iblk1 V c 1 t) (V c main_v3_0) (V c main_v3_1) (i 0) (i 1) r hq hk k
  show Ideal.div (∑ k : Fin 4096, bexp (iblk1 V c 0 t) (iblk1 V c 1 t) r k * iblk1 V c 2 t (ix3 (0 : Fin 1) k o))
      (∑ k : Fin 4096, bexp (iblk1 V c 0 t) (iblk1 V c 1 t) r k)
    = Ideal.div (∑ k : Fin 4096, Cert.Attn.pexpOf (V c main_v3_0) (V c main_v3_1) (i 0) (i 1) k * V c main_v3_2 (ix3 (i 0) k (i 2)))
      (∑ k : Fin 4096, Cert.Attn.pexpOf (V c main_v3_0) (V c main_v3_1) (i 0) (i 1) k)
  exact congrArg₂ Ideal.div (Finset.sum_congr rfl fun k _ => congrArg₂ (· * ·) (hp k) (hv k)) (Finset.sum_congr rfl fun k _ => hp k)

/-- An index of the result array is in point t's block iff each coordinate is in the block's range on its axis. -/
theorem mem_blk3 (t : Fin cfg1.N) (i : S4x4096x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v4).slice (win1_3.rect t)).set ↔ _
  rw [View.set_slice_whole, Rect.mem_set_unit]
  exact Iff.rfl

/-- The 32 output blocks cover the result array: row s of batch b is in the block of the point (b, s / 512). -/
theorem cover3 (i : S4x4096x64.Idx) : ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 64 := (i 2).isLt
  obtain ⟨t, ht⟩ := idx_onto3 ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 64 ≤ (i 2).val ∧ (i 2).val < win1_3.index t (2 : Fin 3) * 64 + 64; omega

/-- The result array after the region: the attention function of the query, transposed-key and value arrays as the
    region finds them. -/
theorem final1_3 (c : Dev nD) :
    (dat1 V c).arrAt 3 cfg1.N = Cert.Attn.attnOf (V c main_v3_0) (V c main_v3_1) (V c main_v3_2) :=
  (dat1 V c).arrAt_eq_of_cover 3 (Cert.Attn.attnOf (V c main_v3_0) (V c main_v3_1) (V c main_v3_2))
    (fun t _ => flushed3_eq V c t) cover3

end Cert.KernelIdeal.Region1

end
-- ==== Proof.Compose.lean ====
/-
  The idealized kernel's result as one function of its four argument arrays.

  The buffer contents at the program's segment boundaries form a fold from the launch memory.  After the host
  stretch the three weights sit transposed, [512, 64], beside the untouched input.  The projection region leaves
  the query array Q[b, s, o] = Σ_d x[b, s, d] · wqᵀ[d, o], the keys transposed KT[b, o, s] = Σ_d x[b, s, d] · wkᵀ[d, o]
  and the values V[b, s, o] = Σ_d x[b, s, d] · wvᵀ[d, o]; a projection by a transposed weight is the projection by
  the weight as given.  The attention region finds those three arrays and leaves the attention function of them
  in the result array.  Composed: the result is the attention function (quotient last) of the projections of x
  by wq, wk, wv.
-/
import proofs.«125508_j42588895707870_2_alg».proof.Proof.Gen.KernelIdeal.Frame
import proofs.«125508_j42588895707870_2_alg».proof.Proof.Spec
import proofs.«125508_j42588895707870_2_alg».proof.Proof.Region0
import proofs.«125508_j42588895707870_2_alg».proof.Proof.Region1
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Compose

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- A [64, 512] matrix transposed by the host is its transpose index by index. -/
theorem transpose_eq (w : S64x512.Idx → EReal) :
    transpose S512x64 [1, 0] w transposes_S64x512_S512x64_1_0 = Cert.Attn.transposeW w := by
  funext j
  obtain ⟨d, o, rfl⟩ : ∃ (d : Fin 512) (o : Fin 64), j = ix2 d o := ⟨j 0, j 1, eq_ix2 j⟩
  exact transpose_ix2_apply w transposes_S64x512_S512x64_1_0 d o

/-- What the projection region finds: the input as launched, -/
theorem V1_arg0 (c : Dev nD) : V1 m ρ c main_arg0 = m ((c : Thread nD τ).loc main_arg0) := by
  show StableHlo.after hostOps0 (fun b => m ((c : Dev nD), b)) (Proc.devRef .tc main_arg0) = _
  after_results

/-- and the three weights transposed. -/
theorem V1_v0 (c : Dev nD) :
    (V1 m ρ c main_v0 : S512x64.Idx → EReal) = Cert.Attn.transposeW (m ((c : Thread nD τ).loc main_arg1)) := by
  refine Eq.trans ?_ (transpose_eq (m ((c : Thread nD τ).loc main_arg1)))
  show StableHlo.after hostOps0 (fun b => m ((c : Dev nD), b)) (Proc.devRef .tc main_v0) = _
  after_results
theorem V1_v1 (c : Dev nD) :
    (V1 m ρ c main_v1 : S512x64.Idx → EReal) = Cert.Attn.transposeW (m ((c : Thread nD τ).loc main_arg2)) := by
  refine Eq.trans ?_ (transpose_eq (m ((c : Thread nD τ).loc main_arg2)))
  show StableHlo.after hostOps0 (fun b => m ((c : Dev nD), b)) (Proc.devRef .tc main_v1) = _
  after_results
theorem V1_v2 (c : Dev nD) :
    (V1 m ρ c main_v2 : S512x64.Idx → EReal) = Cert.Attn.transposeW (m ((c : Thread nD τ).loc main_arg3)) := by
  refine Eq.trans ?_ (transpose_eq (m ((c : Thread nD τ).loc main_arg3)))
  show StableHlo.after hostOps0 (fun b => m ((c : Dev nD), b)) (Proc.devRef .tc main_v2) = _
  after_results

/-- What the attention region finds: the three projections. -/
theorem V2_q (c : Dev nD) :
    (V2 m ρ c main_v3_0 : S4x4096x64.Idx → EReal)
      = Cert.Attn.projArr (m ((c : Thread nD τ).loc main_arg0)) (m ((c : Thread nD τ).loc main_arg1)) := by
  refine (W2_arr m ρ c 4).trans ((Cert.KernelIdeal.Region0.final0_4 (V1 m ρ) c).trans ?_)
  rw [V1_arg0, V1_v0]
  exact Cert.Attn.projBy_transposeW _ _
theorem V2_kt (c : Dev nD) :
    (V2 m ρ c main_v3_1 : S4x64x4096.Idx → EReal)
      = Cert.Attn.projArrT (m ((c : Thread nD τ).loc main_arg0)) (m ((c : Thread nD τ).loc main_arg2)) := by
  refine (W2_arr m ρ c 5).trans ((Cert.KernelIdeal.Region0.final0_5 (V1 m ρ) c).trans ?_)
  rw [V1_arg0, V1_v1]
  exact Cert.Attn.projByT_transposeW _ _
theorem V2_v (c : Dev nD) :
    (V2 m ρ c main_v3_2 : S4x4096x64.Idx → EReal)
      = Cert.Attn.projArr (m ((c : Thread nD τ).loc main_arg0)) (m ((c : Thread nD τ).loc main_arg3)) := by
  refine (W2_arr m ρ c 6).trans ((Cert.KernelIdeal.Region0.final0_6 (V1 m ρ) c).trans ?_)
  rw [V1_arg0, V1_v2]
  exact Cert.Attn.projBy_transposeW _ _

/-- The result array at the last segment boundary: the attention function, quotient last, of the arguments. -/
theorem result_eq (c : Dev nD) :
    (W3 m ρ c (Proc.devRef .tc main_v4) : S4x4096x64.Idx → EReal)
      = Cert.Attn.attnK (m ((c : Thread nD τ).loc main_arg0)) (m ((c : Thread nD τ).loc main_arg1))
          (m ((c : Thread nD τ).loc main_arg2)) (m ((c : Thread nD τ).loc main_arg3)) := by
  refine (W3_arr m ρ c 3).trans ((Cert.KernelIdeal.Region1.final1_3 (V2 m ρ) c).trans ?_)
  rw [V2_q, V2_kt, V2_v]
  rfl

end Cert.KernelIdeal.Compose

end
-- ==== Proof.lean ====
/-
  Single-head attention, two kernels against a plain reference: the certificate's five claims.

  The kernel projects the input by three weight matrices (queries, keys held transposed, values) in one
  pipelined region, and in a second region takes, for each row, the scores against all 4096 keys scaled by 1/8,
  their maximum, the exponentials of score minus maximum, and the weighted sum of the values divided by the
  sum of the exponentials.  The reference forms the same projections, scores scaled by 1 / √64, a softmax over
  the keys (the quotient taken entry by entry), and then the product with the values.

  On the extended reals √64 = 8 and 1 · 8⁻¹ = 1/8, so the scales agree; changes of float format are the
  identity; matrix products and reductions are plain sums and folds in any arrangement.  What is left between the
  two programs is where the quotient by the row's sum L stands: (Σ_k P_k · v_k) / L against Σ_k (P_k / L) · v_k.
  That is the distributive law, and it needs finiteness: under the precondition every input entry is a real, so
  every projection, score and row maximum is a real, every P_k a positive real, L a positive real, and the law
  holds in ℝ.

  The three frames: the two kernel programs' frames are the generated ones; the reference has no kernel, and its
  frame is its run with the result dropped.  The idealization rewrote nothing, so `preserves` is `True`.
-/
import proofs.«125508_j42588895707870_2_alg».proof.Defs
import proofs.«125508_j42588895707870_2_alg».proof.Proof.Gen.Kernel
import proofs.«125508_j42588895707870_2_alg».proof.Proof.Gen.Kernel.Frame
import proofs.«125508_j42588895707870_2_alg».proof.Proof.Gen.KernelIdeal
import proofs.«125508_j42588895707870_2_alg».proof.Proof.Gen.KernelIdeal.Frame
import proofs.«125508_j42588895707870_2_alg».proof.Proof.Gen.ReferenceIdeal
import proofs.«125508_j42588895707870_2_alg».proof.Proof.Gen.Pre_finite_inputs
import proofs.«125508_j42588895707870_2_alg».proof.Proof.Gen.ReferenceIdeal.Run
import proofs.«125508_j42588895707870_2_alg».proof.Proof.Gen.ReferenceIdeal.Read
import proofs.«125508_j42588895707870_2_alg».proof.Proof.Spec
import proofs.«125508_j42588895707870_2_alg».proof.Proof.SpecLaw
import proofs.«125508_j42588895707870_2_alg».proof.Proof.Finite
import proofs.«125508_j42588895707870_2_alg».proof.Proof.RefValue
import proofs.«125508_j42588895707870_2_alg».proof.Proof.KernelRun
import proofs.«125508_j42588895707870_2_alg».proof.Proof.Compose

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result array at the attention function,
    quotient last, of the kernel's arguments: the kernel by its run and the fold of its segment boundaries, the
    reference by its run read as the softmax-first arrangement, which under the precondition is the same function. -/
theorem algebraic : Cert.algebraic_KernelIdeal_ReferenceIdeal := by
  intro m ρ m' ρ' hpre hagree
  refine ⟨fun c => Cert.Attn.attnK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Compose.result_eq m ρ c), (h c).2⟩)
      (Cert.KernelIdeal.Result.run_result m ρ)
  · refine (θ_run Cert.ReferenceIdeal.defs _ _).mono (fun r h c => ⟨?_, (h c).2⟩)
      (Cert.ReferenceIdeal.Value.run (F := Ideal) m' ρ')
    obtain ⟨hx, hq, hk, hv⟩ := Cert.Attn.real_of_pre _ _ _ _ (hpre c)
    refine (h c).1.trans ?_
    rw [Cert.ReferenceIdeal.Read.val_main_v19_eq, Cert.Attn.Ref.ref_eq, (hagree c).1, (hagree c).2.1, (hagree c).2.2.1,
      (hagree c).2.2.2]
    exact (Cert.Attn.attnK_eq_attnR _ _ _ _ hx hq hk hv).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
